-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v304) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x4096 : Shape := ⟨2, ![512, 4096]⟩
abbrev S_ : Shape := ⟨0, ![]⟩

class Facts : Prop where
  bcast_S_S512x4096 : S_.BroadcastsInDim S512x4096 (![] : Fin 0 → Fin S512x4096.rank)
  reducesTo_S512x4096_S_d0_1 : S512x4096.ReducesTo [0, 1] S_
  h_S_ : 0 < S_.numel

variable [Facts]

def fn {F : FTy → Type} [FloatOps F] (main_arg0 : FVec F S512x4096 .f32) : IVec S_ 1 :=
  let main_v0 : FVec F S512x4096 .f32 := Host.absf main_arg0
  let main_cst : FVec F S_ .f32 := constant S_ .f32 0x7F800000#32
  let main_v1 : FVec F S512x4096 .f32 := broadcastInDim S512x4096 ![] bcast_S_S512x4096 main_cst
  let main_v2 : IVec S512x4096 1 := cmpf .olt main_v0 main_v1
  let main_c : IVec S_ 1 := constantI S_ 1 1#1
  let main_v3 : IVec S_ 1 := (fun x v => Host.reduce IntOp.andi x v reducesTo_S512x4096_S_d0_1 h_S_) main_v2 main_c
  main_v3
-- ==== Kernel.lean ====
abbrev S512x4096 : Shape := ⟨2, ![512, 4096]⟩
abbrev S512x65536 : Shape := ⟨2, ![512, 65536]⟩
abbrev S128x1024 : Shape := ⟨2, ![128, 1024]⟩
abbrev S128x16384 : Shape := ⟨2, ![128, 16384]⟩
abbrev S128x1024x1 : Shape := ⟨3, ![128, 1024, 1]⟩
abbrev S128x1024x16 : Shape := ⟨3, ![128, 1024, 16]⟩
abbrev S512x4096x16 : Shape := ⟨3, ![512, 4096, 16]⟩

abbrev nBuf : Space → Nat
  | .hbm => 3
  | .vmem => 4
  | .smem => 0
  | _ => 0

abbrev bufTy : (tb : Table) → Fin (tcTables nBuf tb) → BufTy
  | .hbm, ⟨0, _⟩ => ⟨S512x4096, .f32⟩
  | .hbm, ⟨1, _⟩ => ⟨S512x65536, .f32⟩
  | .hbm, ⟨2, _⟩ => ⟨S512x4096x16, .f32⟩
  | .local _ .vmem, ⟨0, _⟩ => ⟨S128x1024, .f32⟩
  | .local _ .vmem, ⟨1, _⟩ => ⟨S128x1024, .f32⟩
  | .local _ .vmem, ⟨2, _⟩ => ⟨S128x16384, .f32⟩
  | .local _ .vmem, ⟨3, _⟩ => ⟨S128x16384, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S128x1024_S128x1024_0_0 : ∀ a, (![0, 0] : Fin 2 → Nat) a + S128x1024.size a ≤ S128x1024.size a
  h_S128x1024 : 0 < S128x1024.numel
  natLt_1_32 : 1 < 32
  shapeCasts_S128x1024_S128x1024x1 : S128x1024.ShapeCasts S128x1024x1
  concatenates_S128x1024x1_S128x1024x1_S128x1024x1_S128x1024x1_S128x1024x1_S128x1024x1_S128x1024x1_S128x1024x1_S128x1024x1_S128x1024x1_S128x1024x1_S128x1024x1_S128x1024x1_S128x1024x1_S128x1024x1_S128x1024x1_S128x1024x16_d2 : Shape.Concatenates [S128x1024x1, S128x1024x1, S128x1024x1, S128x1024x1, S128x1024x1, S128x1024x1, S128x1024x1, S128x1024x1, S128x1024x1, S128x1024x1, S128x1024x1, S128x1024x1, S128x1024x1, S128x1024x1, S128x1024x1, S128x1024x1] S128x1024x16 2
  shapeCasts_S128x1024x16_S128x16384 : S128x1024x16.ShapeCasts S128x16384
  inb_S128x16384_S128x16384_0_0 : ∀ a, (![0, 0] : Fin 2 → Nat) a + S128x16384.size a ≤ S128x16384.size a
  h_S128x16384 : 0 < S128x16384.numel
  shapeCasts_S512x65536_S512x4096x16 : S512x65536.ShapeCasts S512x4096x16
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S512x4096.size a
  hwx0_0 : ∀ i : grid0.Coords, EltTy.bits .f32 = 32 ∨ (Rect.block (s := S512x4096) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x16384.size a ≤ S512x65536.size a
  hwx0_1 : ∀ i : grid0.Coords, EltTy.bits .f32 = 32 ∨ (Rect.block (s := S512x65536) S128x16384.size (cc0_transform_1 i) (hinb0_1 i)).WholeWords (EltTy.packing .f32)

variable [Facts₀]

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x16384.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S512x4096 : Shape := ⟨2, ![512, 4096]⟩
abbrev S_ : Shape := ⟨0, ![]⟩
abbrev S512x4096x1 : Shape := ⟨3, ![512, 4096, 1]⟩
abbrev S512x4096x16 : Shape := ⟨3, ![512, 4096, 16]⟩

abbrev nBuf : Space → Nat
  | .hbm => 418
  | .vmem => 0
  | .smem => 0
  | _ => 0

abbrev hbmTy0_0 (i : Nat) : BufTy := match i % 128 with
  | 0 => ⟨S512x4096, .f32⟩
  | 1 => ⟨S_, .f32⟩
  | 2 => ⟨S512x4096, .f32⟩
  | 3 => ⟨S512x4096, .f32⟩
  | 4 => ⟨S_, .f32⟩
  | 5 => ⟨S512x4096, .f32⟩
  | 6 => ⟨S512x4096, .f32⟩
  | 7 => ⟨S_, .f32⟩
  | 8 => ⟨S512x4096, .f32⟩
  | 9 => ⟨S512x4096, .f32⟩
  | 10 => ⟨S512x4096, .f32⟩
  | 11 => ⟨S512x4096, .f32⟩
  | 12 => ⟨S_, .f32⟩
  | 13 => ⟨S512x4096, .f32⟩
  | 14 => ⟨S512x4096, .f32⟩
  | 15 => ⟨S_, .f32⟩
  | 16 => ⟨S512x4096, .f32⟩
  | 17 => ⟨S512x4096, .f32⟩
  | 18 => ⟨S_, .f32⟩
  | 19 => ⟨S512x4096, .f32⟩
  | 20 => ⟨S512x4096, .i1⟩
  | 21 => ⟨S512x4096, .f32⟩
  | 22 => ⟨S_, .f32⟩
  | 23 => ⟨S512x4096, .f32⟩
  | 24 => ⟨S512x4096, .f32⟩
  | 25 => ⟨S512x4096, .f32⟩
  | 26 => ⟨S_, .f32⟩
  | 27 => ⟨S512x4096, .f32⟩
  | 28 => ⟨S512x4096, .f32⟩
  | 29 => ⟨S_, .f32⟩
  | 30 => ⟨S512x4096, .f32⟩
  | 31 => ⟨S512x4096, .f32⟩
  | 32 => ⟨S_, .f32⟩
  | 33 => ⟨S512x4096, .f32⟩
  | 34 => ⟨S512x4096, .f32⟩
  | 35 => ⟨S512x4096, .f32⟩
  | 36 => ⟨S512x4096, .f32⟩
  | 37 => ⟨S_, .f32⟩
  | 38 => ⟨S512x4096, .f32⟩
  | 39 => ⟨S512x4096, .f32⟩
  | 40 => ⟨S_, .f32⟩
  | 41 => ⟨S512x4096, .f32⟩
  | 42 => ⟨S512x4096, .f32⟩
  | 43 => ⟨S_, .f32⟩
  | 44 => ⟨S512x4096, .f32⟩
  | 45 => ⟨S512x4096, .i1⟩
  | 46 => ⟨S512x4096, .f32⟩
  | 47 => ⟨S_, .f32⟩
  | 48 => ⟨S512x4096, .f32⟩
  | 49 => ⟨S512x4096, .f32⟩
  | 50 => ⟨S512x4096, .f32⟩
  | 51 => ⟨S_, .f32⟩
  | 52 => ⟨S512x4096, .f32⟩
  | 53 => ⟨S512x4096, .f32⟩
  | 54 => ⟨S_, .f32⟩
  | 55 => ⟨S512x4096, .f32⟩
  | 56 => ⟨S512x4096, .f32⟩
  | 57 => ⟨S_, .f32⟩
  | 58 => ⟨S512x4096, .f32⟩
  | 59 => ⟨S512x4096, .f32⟩
  | 60 => ⟨S512x4096, .f32⟩
  | 61 => ⟨S512x4096, .f32⟩
  | 62 => ⟨S_, .f32⟩
  | 63 => ⟨S512x4096, .f32⟩
  | 64 => ⟨S512x4096, .f32⟩
  | 65 => ⟨S_, .f32⟩
  | 66 => ⟨S512x4096, .f32⟩
  | 67 => ⟨S512x4096, .f32⟩
  | 68 => ⟨S_, .f32⟩
  | 69 => ⟨S512x4096, .f32⟩
  | 70 => ⟨S512x4096, .i1⟩
  | 71 => ⟨S512x4096, .f32⟩
  | 72 => ⟨S_, .f32⟩
  | 73 => ⟨S512x4096, .f32⟩
  | 74 => ⟨S512x4096, .f32⟩
  | 75 => ⟨S512x4096, .f32⟩
  | 76 => ⟨S_, .f32⟩
  | 77 => ⟨S512x4096, .f32⟩
  | 78 => ⟨S512x4096, .f32⟩
  | 79 => ⟨S_, .f32⟩
  | 80 => ⟨S512x4096, .f32⟩
  | 81 => ⟨S512x4096, .f32⟩
  | 82 => ⟨S_, .f32⟩
  | 83 => ⟨S512x4096, .f32⟩
  | 84 => ⟨S512x4096, .f32⟩
  | 85 => ⟨S512x4096, .f32⟩
  | 86 => ⟨S512x4096, .f32⟩
  | 87 => ⟨S_, .f32⟩
  | 88 => ⟨S512x4096, .f32⟩
  | 89 => ⟨S512x4096, .f32⟩
  | 90 => ⟨S_, .f32⟩
  | 91 => ⟨S512x4096, .f32⟩
  | 92 => ⟨S512x4096, .f32⟩
  | 93 => ⟨S_, .f32⟩
  | 94 => ⟨S512x4096, .f32⟩
  | 95 => ⟨S512x4096, .i1⟩
  | 96 => ⟨S512x4096, .f32⟩
  | 97 => ⟨S_, .f32⟩
  | 98 => ⟨S512x4096, .f32⟩
  | 99 => ⟨S512x4096, .f32⟩
  | 100 => ⟨S512x4096, .f32⟩
  | 101 => ⟨S_, .f32⟩
  | 102 => ⟨S512x4096, .f32⟩
  | 103 => ⟨S512x4096, .f32⟩
  | 104 => ⟨S_, .f32⟩
  | 105 => ⟨S512x4096, .f32⟩
  | 106 => ⟨S512x4096, .f32⟩
  | 107 => ⟨S_, .f32⟩
  | 108 => ⟨S512x4096, .f32⟩
  | 109 => ⟨S512x4096, .f32⟩
  | 110 => ⟨S512x4096, .f32⟩
  | 111 => ⟨S512x4096, .f32⟩
  | 112 => ⟨S_, .f32⟩
  | 113 => ⟨S512x4096, .f32⟩
  | 114 => ⟨S512x4096, .f32⟩
  | 115 => ⟨S_, .f32⟩
  | 116 => ⟨S512x4096, .f32⟩
  | 117 => ⟨S512x4096, .f32⟩
  | 118 => ⟨S_, .f32⟩
  | 119 => ⟨S512x4096, .f32⟩
  | 120 => ⟨S512x4096, .i1⟩
  | 121 => ⟨S512x4096, .f32⟩
  | 122 => ⟨S_, .f32⟩
  | 123 => ⟨S512x4096, .f32⟩
  | 124 => ⟨S512x4096, .f32⟩
  | 125 => ⟨S512x4096, .f32⟩
  | 126 => ⟨S_, .f32⟩
  | 127 => ⟨S512x4096, .f32⟩
  | _ => ⟨S512x4096, .f32⟩

abbrev hbmTy0_1 (i : Nat) : BufTy := match i % 128 with
  | 0 => ⟨S512x4096, .f32⟩
  | 1 => ⟨S_, .f32⟩
  | 2 => ⟨S512x4096, .f32⟩
  | 3 => ⟨S512x4096, .f32⟩
  | 4 => ⟨S_, .f32⟩
  | 5 => ⟨S512x4096, .f32⟩
  | 6 => ⟨S512x4096, .f32⟩
  | 7 => ⟨S512x4096, .f32⟩
  | 8 => ⟨S512x4096, .f32⟩
  | 9 => ⟨S_, .f32⟩
  | 10 => ⟨S512x4096, .f32⟩
  | 11 => ⟨S512x4096, .f32⟩
  | 12 => ⟨S_, .f32⟩
  | 13 => ⟨S512x4096, .f32⟩
  | 14 => ⟨S512x4096, .f32⟩
  | 15 => ⟨S_, .f32⟩
  | 16 => ⟨S512x4096, .f32⟩
  | 17 => ⟨S512x4096, .i1⟩
  | 18 => ⟨S512x4096, .f32⟩
  | 19 => ⟨S_, .f32⟩
  | 20 => ⟨S512x4096, .f32⟩
  | 21 => ⟨S512x4096, .f32⟩
  | 22 => ⟨S512x4096, .f32⟩
  | 23 => ⟨S_, .f32⟩
  | 24 => ⟨S512x4096, .f32⟩
  | 25 => ⟨S512x4096, .f32⟩
  | 26 => ⟨S_, .f32⟩
  | 27 => ⟨S512x4096, .f32⟩
  | 28 => ⟨S512x4096, .f32⟩
  | 29 => ⟨S_, .f32⟩
  | 30 => ⟨S512x4096, .f32⟩
  | 31 => ⟨S512x4096, .f32⟩
  | 32 => ⟨S512x4096, .f32⟩
  | 33 => ⟨S512x4096, .f32⟩
  | 34 => ⟨S_, .f32⟩
  | 35 => ⟨S512x4096, .f32⟩
  | 36 => ⟨S512x4096, .f32⟩
  | 37 => ⟨S_, .f32⟩
  | 38 => ⟨S512x4096, .f32⟩
  | 39 => ⟨S512x4096, .f32⟩
  | 40 => ⟨S_, .f32⟩
  | 41 => ⟨S512x4096, .f32⟩
  | 42 => ⟨S512x4096, .i1⟩
  | 43 => ⟨S512x4096, .f32⟩
  | 44 => ⟨S_, .f32⟩
  | 45 => ⟨S512x4096, .f32⟩
  | 46 => ⟨S512x4096, .f32⟩
  | 47 => ⟨S512x4096, .f32⟩
  | 48 => ⟨S_, .f32⟩
  | 49 => ⟨S512x4096, .f32⟩
  | 50 => ⟨S512x4096, .f32⟩
  | 51 => ⟨S_, .f32⟩
  | 52 => ⟨S512x4096, .f32⟩
  | 53 => ⟨S512x4096, .f32⟩
  | 54 => ⟨S_, .f32⟩
  | 55 => ⟨S512x4096, .f32⟩
  | 56 => ⟨S512x4096, .f32⟩
  | 57 => ⟨S512x4096, .f32⟩
  | 58 => ⟨S512x4096, .f32⟩
  | 59 => ⟨S_, .f32⟩
  | 60 => ⟨S512x4096, .f32⟩
  | 61 => ⟨S512x4096, .f32⟩
  | 62 => ⟨S_, .f32⟩
  | 63 => ⟨S512x4096, .f32⟩
  | 64 => ⟨S512x4096, .f32⟩
  | 65 => ⟨S_, .f32⟩
  | 66 => ⟨S512x4096, .f32⟩
  | 67 => ⟨S512x4096, .i1⟩
  | 68 => ⟨S512x4096, .f32⟩
  | 69 => ⟨S_, .f32⟩
  | 70 => ⟨S512x4096, .f32⟩
  | 71 => ⟨S512x4096, .f32⟩
  | 72 => ⟨S512x4096, .f32⟩
  | 73 => ⟨S_, .f32⟩
  | 74 => ⟨S512x4096, .f32⟩
  | 75 => ⟨S512x4096, .f32⟩
  | 76 => ⟨S_, .f32⟩
  | 77 => ⟨S512x4096, .f32⟩
  | 78 => ⟨S512x4096, .f32⟩
  | 79 => ⟨S_, .f32⟩
  | 80 => ⟨S512x4096, .f32⟩
  | 81 => ⟨S512x4096, .f32⟩
  | 82 => ⟨S512x4096, .f32⟩
  | 83 => ⟨S512x4096, .f32⟩
  | 84 => ⟨S_, .f32⟩
  | 85 => ⟨S512x4096, .f32⟩
  | 86 => ⟨S512x4096, .f32⟩
  | 87 => ⟨S_, .f32⟩
  | 88 => ⟨S512x4096, .f32⟩
  | 89 => ⟨S512x4096, .f32⟩
  | 90 => ⟨S_, .f32⟩
  | 91 => ⟨S512x4096, .f32⟩
  | 92 => ⟨S512x4096, .i1⟩
  | 93 => ⟨S512x4096, .f32⟩
  | 94 => ⟨S_, .f32⟩
  | 95 => ⟨S512x4096, .f32⟩
  | 96 => ⟨S512x4096, .f32⟩
  | 97 => ⟨S512x4096, .f32⟩
  | 98 => ⟨S_, .f32⟩
  | 99 => ⟨S512x4096, .f32⟩
  | 100 => ⟨S512x4096, .f32⟩
  | 101 => ⟨S_, .f32⟩
  | 102 => ⟨S512x4096, .f32⟩
  | 103 => ⟨S512x4096, .f32⟩
  | 104 => ⟨S_, .f32⟩
  | 105 => ⟨S512x4096, .f32⟩
  | 106 => ⟨S512x4096, .f32⟩
  | 107 => ⟨S512x4096, .f32⟩
  | 108 => ⟨S512x4096, .f32⟩
  | 109 => ⟨S_, .f32⟩
  | 110 => ⟨S512x4096, .f32⟩
  | 111 => ⟨S512x4096, .f32⟩
  | 112 => ⟨S_, .f32⟩
  | 113 => ⟨S512x4096, .f32⟩
  | 114 => ⟨S512x4096, .f32⟩
  | 115 => ⟨S_, .f32⟩
  | 116 => ⟨S512x4096, .f32⟩
  | 117 => ⟨S512x4096, .i1⟩
  | 118 => ⟨S512x4096, .f32⟩
  | 119 => ⟨S_, .f32⟩
  | 120 => ⟨S512x4096, .f32⟩
  | 121 => ⟨S512x4096, .f32⟩
  | 122 => ⟨S512x4096, .f32⟩
  | 123 => ⟨S_, .f32⟩
  | 124 => ⟨S512x4096, .f32⟩
  | 125 => ⟨S512x4096, .f32⟩
  | 126 => ⟨S_, .f32⟩
  | 127 => ⟨S512x4096, .f32⟩
  | _ => ⟨S512x4096, .f32⟩

abbrev hbmTy0_2 (i : Nat) : BufTy := match i % 128 with
  | 0 => ⟨S512x4096, .f32⟩
  | 1 => ⟨S_, .f32⟩
  | 2 => ⟨S512x4096, .f32⟩
  | 3 => ⟨S512x4096, .f32⟩
  | 4 => ⟨S512x4096, .f32⟩
  | 5 => ⟨S512x4096, .f32⟩
  | 6 => ⟨S_, .f32⟩
  | 7 => ⟨S512x4096, .f32⟩
  | 8 => ⟨S512x4096, .f32⟩
  | 9 => ⟨S_, .f32⟩
  | 10 => ⟨S512x4096, .f32⟩
  | 11 => ⟨S512x4096, .f32⟩
  | 12 => ⟨S_, .f32⟩
  | 13 => ⟨S512x4096, .f32⟩
  | 14 => ⟨S512x4096, .i1⟩
  | 15 => ⟨S512x4096, .f32⟩
  | 16 => ⟨S_, .f32⟩
  | 17 => ⟨S512x4096, .f32⟩
  | 18 => ⟨S512x4096, .f32⟩
  | 19 => ⟨S512x4096, .f32⟩
  | 20 => ⟨S_, .f32⟩
  | 21 => ⟨S512x4096, .f32⟩
  | 22 => ⟨S512x4096, .f32⟩
  | 23 => ⟨S_, .f32⟩
  | 24 => ⟨S512x4096, .f32⟩
  | 25 => ⟨S512x4096, .f32⟩
  | 26 => ⟨S_, .f32⟩
  | 27 => ⟨S512x4096, .f32⟩
  | 28 => ⟨S512x4096, .f32⟩
  | 29 => ⟨S512x4096, .f32⟩
  | 30 => ⟨S512x4096, .f32⟩
  | 31 => ⟨S_, .f32⟩
  | 32 => ⟨S512x4096, .f32⟩
  | 33 => ⟨S512x4096, .f32⟩
  | 34 => ⟨S_, .f32⟩
  | 35 => ⟨S512x4096, .f32⟩
  | 36 => ⟨S512x4096, .f32⟩
  | 37 => ⟨S_, .f32⟩
  | 38 => ⟨S512x4096, .f32⟩
  | 39 => ⟨S512x4096, .i1⟩
  | 40 => ⟨S512x4096, .f32⟩
  | 41 => ⟨S_, .f32⟩
  | 42 => ⟨S512x4096, .f32⟩
  | 43 => ⟨S512x4096, .f32⟩
  | 44 => ⟨S512x4096, .f32⟩
  | 45 => ⟨S_, .f32⟩
  | 46 => ⟨S512x4096, .f32⟩
  | 47 => ⟨S512x4096, .f32⟩
  | 48 => ⟨S_, .f32⟩
  | 49 => ⟨S512x4096, .f32⟩
  | 50 => ⟨S512x4096, .f32⟩
  | 51 => ⟨S_, .f32⟩
  | 52 => ⟨S512x4096, .f32⟩
  | 53 => ⟨S512x4096, .f32⟩
  | 54 => ⟨S512x4096, .f32⟩
  | 55 => ⟨S512x4096, .f32⟩
  | 56 => ⟨S_, .f32⟩
  | 57 => ⟨S512x4096, .f32⟩
  | 58 => ⟨S512x4096, .f32⟩
  | 59 => ⟨S_, .f32⟩
  | 60 => ⟨S512x4096, .f32⟩
  | 61 => ⟨S512x4096, .f32⟩
  | 62 => ⟨S_, .f32⟩
  | 63 => ⟨S512x4096, .f32⟩
  | 64 => ⟨S512x4096, .i1⟩
  | 65 => ⟨S512x4096, .f32⟩
  | 66 => ⟨S_, .f32⟩
  | 67 => ⟨S512x4096, .f32⟩
  | 68 => ⟨S512x4096, .f32⟩
  | 69 => ⟨S512x4096, .f32⟩
  | 70 => ⟨S_, .f32⟩
  | 71 => ⟨S512x4096, .f32⟩
  | 72 => ⟨S512x4096, .f32⟩
  | 73 => ⟨S_, .f32⟩
  | 74 => ⟨S512x4096, .f32⟩
  | 75 => ⟨S512x4096, .f32⟩
  | 76 => ⟨S_, .f32⟩
  | 77 => ⟨S512x4096, .f32⟩
  | 78 => ⟨S512x4096, .f32⟩
  | 79 => ⟨S512x4096, .f32⟩
  | 80 => ⟨S512x4096, .f32⟩
  | 81 => ⟨S_, .f32⟩
  | 82 => ⟨S512x4096, .f32⟩
  | 83 => ⟨S512x4096, .f32⟩
  | 84 => ⟨S_, .f32⟩
  | 85 => ⟨S512x4096, .f32⟩
  | 86 => ⟨S512x4096, .f32⟩
  | 87 => ⟨S_, .f32⟩
  | 88 => ⟨S512x4096, .f32⟩
  | 89 => ⟨S512x4096, .i1⟩
  | 90 => ⟨S512x4096, .f32⟩
  | 91 => ⟨S_, .f32⟩
  | 92 => ⟨S512x4096, .f32⟩
  | 93 => ⟨S512x4096, .f32⟩
  | 94 => ⟨S512x4096, .f32⟩
  | 95 => ⟨S_, .f32⟩
  | 96 => ⟨S512x4096, .f32⟩
  | 97 => ⟨S512x4096, .f32⟩
  | 98 => ⟨S_, .f32⟩
  | 99 => ⟨S512x4096, .f32⟩
  | 100 => ⟨S512x4096, .f32⟩
  | 101 => ⟨S_, .f32⟩
  | 102 => ⟨S512x4096, .f32⟩
  | 103 => ⟨S512x4096, .f32⟩
  | 104 => ⟨S512x4096, .f32⟩
  | 105 => ⟨S512x4096, .f32⟩
  | 106 => ⟨S_, .f32⟩
  | 107 => ⟨S512x4096, .f32⟩
  | 108 => ⟨S512x4096, .f32⟩
  | 109 => ⟨S_, .f32⟩
  | 110 => ⟨S512x4096, .f32⟩
  | 111 => ⟨S512x4096, .f32⟩
  | 112 => ⟨S_, .f32⟩
  | 113 => ⟨S512x4096, .f32⟩
  | 114 => ⟨S512x4096, .i1⟩
  | 115 => ⟨S512x4096, .f32⟩
  | 116 => ⟨S_, .f32⟩
  | 117 => ⟨S512x4096, .f32⟩
  | 118 => ⟨S512x4096, .f32⟩
  | 119 => ⟨S512x4096, .f32⟩
  | 120 => ⟨S_, .f32⟩
  | 121 => ⟨S512x4096, .f32⟩
  | 122 => ⟨S512x4096, .f32⟩
  | 123 => ⟨S_, .f32⟩
  | 124 => ⟨S512x4096, .f32⟩
  | 125 => ⟨S512x4096, .f32⟩
  | 126 => ⟨S_, .f32⟩
  | 127 => ⟨S512x4096, .f32⟩
  | _ => ⟨S512x4096, .f32⟩

abbrev hbmTy0_3 (i : Nat) : BufTy := match i % 128 with
  | 0 => ⟨S512x4096, .f32⟩
  | 1 => ⟨S512x4096, .f32⟩
  | 2 => ⟨S512x4096, .f32⟩
  | 3 => ⟨S_, .f32⟩
  | 4 => ⟨S512x4096, .f32⟩
  | 5 => ⟨S512x4096, .f32⟩
  | 6 => ⟨S_, .f32⟩
  | 7 => ⟨S512x4096, .f32⟩
  | 8 => ⟨S512x4096, .f32⟩
  | 9 => ⟨S_, .f32⟩
  | 10 => ⟨S512x4096, .f32⟩
  | 11 => ⟨S512x4096, .i1⟩
  | 12 => ⟨S512x4096, .f32⟩
  | 13 => ⟨S_, .f32⟩
  | 14 => ⟨S512x4096, .f32⟩
  | 15 => ⟨S512x4096, .f32⟩
  | 16 => ⟨S512x4096, .f32⟩
  | 17 => ⟨S512x4096x1, .f32⟩
  | 18 => ⟨S512x4096x1, .f32⟩
  | 19 => ⟨S512x4096x1, .f32⟩
  | 20 => ⟨S512x4096x1, .f32⟩
  | 21 => ⟨S512x4096x1, .f32⟩
  | 22 => ⟨S512x4096x1, .f32⟩
  | 23 => ⟨S512x4096x1, .f32⟩
  | 24 => ⟨S512x4096x1, .f32⟩
  | 25 => ⟨S512x4096x1, .f32⟩
  | 26 => ⟨S512x4096x1, .f32⟩
  | 27 => ⟨S512x4096x1, .f32⟩
  | 28 => ⟨S512x4096x1, .f32⟩
  | 29 => ⟨S512x4096x1, .f32⟩
  | 30 => ⟨S512x4096x1, .f32⟩
  | 31 => ⟨S512x4096x1, .f32⟩
  | 32 => ⟨S512x4096x1, .f32⟩
  | 33 => ⟨S512x4096x16, .f32⟩
  | _ => ⟨S512x4096, .f32⟩

abbrev hbmTy (i : Nat) : BufTy := match i / 128 with
  | 0 => hbmTy0_0 i
  | 1 => hbmTy0_1 i
  | 2 => hbmTy0_2 i
  | 3 => hbmTy0_3 i
  | _ => ⟨S512x4096, .f32⟩

abbrev bufTy : (tb : Table) → Fin (tcTables nBuf tb) → BufTy
  | .hbm, ⟨i, _⟩ => hbmTy i
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_cst_3 : Ref sig .tc := ⟨.hbm, 15, rfl⟩
abbrev main_v10 : Ref sig .tc := ⟨.hbm, 16, rfl⟩
abbrev main_v11 : Ref sig .tc := ⟨.hbm, 17, rfl⟩
abbrev main_cst_4 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_5 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_6 : Ref sig .tc := ⟨.hbm, 26, rfl⟩
abbrev main_v18 : Ref sig .tc := ⟨.hbm, 27, rfl⟩
abbrev main_v19 : Ref sig .tc := ⟨.hbm, 28, rfl⟩
abbrev main_cst_7 : Ref sig .tc := ⟨.hbm, 29, rfl⟩
abbrev main_v20 : Ref sig .tc := ⟨.hbm, 30, rfl⟩
abbrev main_v21 : Ref sig .tc := ⟨.hbm, 31, rfl⟩
abbrev main_cst_8 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_9 : Ref sig .tc := ⟨.hbm, 37, rfl⟩
abbrev main_v26 : Ref sig .tc := ⟨.hbm, 38, rfl⟩
abbrev main_v27 : Ref sig .tc := ⟨.hbm, 39, rfl⟩
abbrev main_cst_10 : Ref sig .tc := ⟨.hbm, 40, rfl⟩
abbrev main_v28 : Ref sig .tc := ⟨.hbm, 41, rfl⟩
abbrev main_v29 : Ref sig .tc := ⟨.hbm, 42, rfl⟩
abbrev main_cst_11 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_12 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_13 : Ref sig .tc := ⟨.hbm, 51, rfl⟩
abbrev main_v36 : Ref sig .tc := ⟨.hbm, 52, rfl⟩
abbrev main_v37 : Ref sig .tc := ⟨.hbm, 53, rfl⟩
abbrev main_cst_14 : Ref sig .tc := ⟨.hbm, 54, rfl⟩
abbrev main_v38 : Ref sig .tc := ⟨.hbm, 55, rfl⟩
abbrev main_v39 : Ref sig .tc := ⟨.hbm, 56, rfl⟩
abbrev main_cst_15 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_16 : Ref sig .tc := ⟨.hbm, 62, rfl⟩
abbrev main_v44 : Ref sig .tc := ⟨.hbm, 63, rfl⟩
abbrev main_v45 : Ref sig .tc := ⟨.hbm, 64, rfl⟩
abbrev main_cst_17 : Ref sig .tc := ⟨.hbm, 65, rfl⟩
abbrev main_v46 : Ref sig .tc := ⟨.hbm, 66, rfl⟩
abbrev main_v47 : Ref sig .tc := ⟨.hbm, 67, rfl⟩
abbrev main_cst_18 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_19 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_20 : Ref sig .tc := ⟨.hbm, 76, rfl⟩
abbrev main_v54 : Ref sig .tc := ⟨.hbm, 77, rfl⟩
abbrev main_v55 : Ref sig .tc := ⟨.hbm, 78, rfl⟩
abbrev main_cst_21 : Ref sig .tc := ⟨.hbm, 79, rfl⟩
abbrev main_v56 : Ref sig .tc := ⟨.hbm, 80, rfl⟩
abbrev main_v57 : Ref sig .tc := ⟨.hbm, 81, rfl⟩
abbrev main_cst_22 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_23 : Ref sig .tc := ⟨.hbm, 87, rfl⟩
abbrev main_v62 : Ref sig .tc := ⟨.hbm, 88, rfl⟩
abbrev main_v63 : Ref sig .tc := ⟨.hbm, 89, rfl⟩
abbrev main_cst_24 : Ref sig .tc := ⟨.hbm, 90, rfl⟩
abbrev main_v64 : Ref sig .tc := ⟨.hbm, 91, rfl⟩
abbrev main_v65 : Ref sig .tc := ⟨.hbm, 92, rfl⟩
abbrev main_cst_25 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_26 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_27 : Ref sig .tc := ⟨.hbm, 101, rfl⟩
abbrev main_v72 : Ref sig .tc := ⟨.hbm, 102, rfl⟩
abbrev main_v73 : Ref sig .tc := ⟨.hbm, 103, rfl⟩
abbrev main_cst_28 : Ref sig .tc := ⟨.hbm, 104, rfl⟩
abbrev main_v74 : Ref sig .tc := ⟨.hbm, 105, rfl⟩
abbrev main_v75 : Ref sig .tc := ⟨.hbm, 106, rfl⟩
abbrev main_cst_29 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_30 : Ref sig .tc := ⟨.hbm, 112, rfl⟩
abbrev main_v80 : Ref sig .tc := ⟨.hbm, 113, rfl⟩
abbrev main_v81 : Ref sig .tc := ⟨.hbm, 114, rfl⟩
abbrev main_cst_31 : Ref sig .tc := ⟨.hbm, 115, rfl⟩
abbrev main_v82 : Ref sig .tc := ⟨.hbm, 116, rfl⟩
abbrev main_v83 : Ref sig .tc := ⟨.hbm, 117, rfl⟩
abbrev main_cst_32 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_33 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_cst_34 : Ref sig .tc := ⟨.hbm, 126, rfl⟩
abbrev main_v90 : Ref sig .tc := ⟨.hbm, 127, rfl⟩
abbrev main_v91 : Ref sig .tc := ⟨.hbm, 128, rfl⟩
abbrev main_cst_35 : Ref sig .tc := ⟨.hbm, 129, rfl⟩
abbrev main_v92 : Ref sig .tc := ⟨.hbm, 130, rfl⟩
abbrev main_v93 : Ref sig .tc := ⟨.hbm, 131, rfl⟩
abbrev main_cst_36 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_cst_37 : Ref sig .tc := ⟨.hbm, 137, rfl⟩
abbrev main_v98 : Ref sig .tc := ⟨.hbm, 138, rfl⟩
abbrev main_v99 : Ref sig .tc := ⟨.hbm, 139, rfl⟩
abbrev main_cst_38 : Ref sig .tc := ⟨.hbm, 140, rfl⟩
abbrev main_v100 : Ref sig .tc := ⟨.hbm, 141, rfl⟩
abbrev main_v101 : Ref sig .tc := ⟨.hbm, 142, rfl⟩
abbrev main_cst_39 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_cst_40 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_cst_41 : Ref sig .tc := ⟨.hbm, 151, rfl⟩
abbrev main_v108 : Ref sig .tc := ⟨.hbm, 152, rfl⟩
abbrev main_v109 : Ref sig .tc := ⟨.hbm, 153, rfl⟩
abbrev main_cst_42 : Ref sig .tc := ⟨.hbm, 154, rfl⟩
abbrev main_v110 : Ref sig .tc := ⟨.hbm, 155, rfl⟩
abbrev main_v111 : Ref sig .tc := ⟨.hbm, 156, rfl⟩
abbrev main_cst_43 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_cst_44 : Ref sig .tc := ⟨.hbm, 162, rfl⟩
abbrev main_v116 : Ref sig .tc := ⟨.hbm, 163, rfl⟩
abbrev main_v117 : Ref sig .tc := ⟨.hbm, 164, rfl⟩
abbrev main_cst_45 : Ref sig .tc := ⟨.hbm, 165, rfl⟩
abbrev main_v118 : Ref sig .tc := ⟨.hbm, 166, rfl⟩
abbrev main_v119 : Ref sig .tc := ⟨.hbm, 167, rfl⟩
abbrev main_cst_46 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_cst_47 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_cst_48 : Ref sig .tc := ⟨.hbm, 176, rfl⟩
abbrev main_v126 : Ref sig .tc := ⟨.hbm, 177, rfl⟩
abbrev main_v127 : Ref sig .tc := ⟨.hbm, 178, rfl⟩
abbrev main_cst_49 : Ref sig .tc := ⟨.hbm, 179, rfl⟩
abbrev main_v128 : Ref sig .tc := ⟨.hbm, 180, rfl⟩
abbrev main_v129 : Ref sig .tc := ⟨.hbm, 181, rfl⟩
abbrev main_cst_50 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_cst_51 : Ref sig .tc := ⟨.hbm, 187, rfl⟩
abbrev main_v134 : Ref sig .tc := ⟨.hbm, 188, rfl⟩
abbrev main_v135 : Ref sig .tc := ⟨.hbm, 189, rfl⟩
abbrev main_cst_52 : Ref sig .tc := ⟨.hbm, 190, rfl⟩
abbrev main_v136 : Ref sig .tc := ⟨.hbm, 191, rfl⟩
abbrev main_v137 : Ref sig .tc := ⟨.hbm, 192, rfl⟩
abbrev main_cst_53 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_cst_54 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_cst_55 : Ref sig .tc := ⟨.hbm, 201, rfl⟩
abbrev main_v144 : Ref sig .tc := ⟨.hbm, 202, rfl⟩
abbrev main_v145 : Ref sig .tc := ⟨.hbm, 203, rfl⟩
abbrev main_cst_56 : Ref sig .tc := ⟨.hbm, 204, rfl⟩
abbrev main_v146 : Ref sig .tc := ⟨.hbm, 205, rfl⟩
abbrev main_v147 : Ref sig .tc := ⟨.hbm, 206, rfl⟩
abbrev main_cst_57 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_cst_58 : Ref sig .tc := ⟨.hbm, 212, rfl⟩
abbrev main_v152 : Ref sig .tc := ⟨.hbm, 213, rfl⟩
abbrev main_v153 : Ref sig .tc := ⟨.hbm, 214, rfl⟩
abbrev main_cst_59 : Ref sig .tc := ⟨.hbm, 215, rfl⟩
abbrev main_v154 : Ref sig .tc := ⟨.hbm, 216, rfl⟩
abbrev main_v155 : Ref sig .tc := ⟨.hbm, 217, rfl⟩
abbrev main_cst_60 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_cst_61 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_cst_62 : Ref sig .tc := ⟨.hbm, 226, rfl⟩
abbrev main_v162 : Ref sig .tc := ⟨.hbm, 227, rfl⟩
abbrev main_v163 : Ref sig .tc := ⟨.hbm, 228, rfl⟩
abbrev main_cst_63 : Ref sig .tc := ⟨.hbm, 229, rfl⟩
abbrev main_v164 : Ref sig .tc := ⟨.hbm, 230, rfl⟩
abbrev main_v165 : Ref sig .tc := ⟨.hbm, 231, rfl⟩
abbrev main_cst_64 : Ref sig .tc := ⟨.hbm, 232, rfl⟩
abbrev main_v166 : Ref sig .tc := ⟨.hbm, 233, rfl⟩
abbrev main_v167 : Ref sig .tc := ⟨.hbm, 234, rfl⟩
abbrev main_v168 : Ref sig .tc := ⟨.hbm, 235, rfl⟩
abbrev main_v169 : Ref sig .tc := ⟨.hbm, 236, rfl⟩
abbrev main_cst_65 : Ref sig .tc := ⟨.hbm, 237, rfl⟩
abbrev main_v170 : Ref sig .tc := ⟨.hbm, 238, rfl⟩
abbrev main_v171 : Ref sig .tc := ⟨.hbm, 239, rfl⟩
abbrev main_cst_66 : Ref sig .tc := ⟨.hbm, 240, rfl⟩
abbrev main_v172 : Ref sig .tc := ⟨.hbm, 241, rfl⟩
abbrev main_v173 : Ref sig .tc := ⟨.hbm, 242, rfl⟩
abbrev main_cst_67 : Ref sig .tc := ⟨.hbm, 243, rfl⟩
abbrev main_v174 : Ref sig .tc := ⟨.hbm, 244, rfl⟩
abbrev main_v175 : Ref sig .tc := ⟨.hbm, 245, rfl⟩
abbrev main_v176 : Ref sig .tc := ⟨.hbm, 246, rfl⟩
abbrev main_cst_68 : Ref sig .tc := ⟨.hbm, 247, rfl⟩
abbrev main_v177 : Ref sig .tc := ⟨.hbm, 248, rfl⟩
abbrev main_v178 : Ref sig .tc := ⟨.hbm, 249, rfl⟩
abbrev main_v179 : Ref sig .tc := ⟨.hbm, 250, rfl⟩
abbrev main_cst_69 : Ref sig .tc := ⟨.hbm, 251, rfl⟩
abbrev main_v180 : Ref sig .tc := ⟨.hbm, 252, rfl⟩
abbrev main_v181 : Ref sig .tc := ⟨.hbm, 253, rfl⟩
abbrev main_cst_70 : Ref sig .tc := ⟨.hbm, 254, rfl⟩
abbrev main_v182 : Ref sig .tc := ⟨.hbm, 255, rfl⟩
abbrev main_v183 : Ref sig .tc := ⟨.hbm, 256, rfl⟩
abbrev main_cst_71 : Ref sig .tc := ⟨.hbm, 257, rfl⟩
abbrev main_v184 : Ref sig .tc := ⟨.hbm, 258, rfl⟩
abbrev main_v185 : Ref sig .tc := ⟨.hbm, 259, rfl⟩
abbrev main_v186 : Ref sig .tc := ⟨.hbm, 260, rfl⟩
abbrev main_v187 : Ref sig .tc := ⟨.hbm, 261, rfl⟩
abbrev main_cst_72 : Ref sig .tc := ⟨.hbm, 262, rfl⟩
abbrev main_v188 : Ref sig .tc := ⟨.hbm, 263, rfl⟩
abbrev main_v189 : Ref sig .tc := ⟨.hbm, 264, rfl⟩
abbrev main_cst_73 : Ref sig .tc := ⟨.hbm, 265, rfl⟩
abbrev main_v190 : Ref sig .tc := ⟨.hbm, 266, rfl⟩
abbrev main_v191 : Ref sig .tc := ⟨.hbm, 267, rfl⟩
abbrev main_cst_74 : Ref sig .tc := ⟨.hbm, 268, rfl⟩
abbrev main_v192 : Ref sig .tc := ⟨.hbm, 269, rfl⟩
abbrev main_v193 : Ref sig .tc := ⟨.hbm, 270, rfl⟩
abbrev main_v194 : Ref sig .tc := ⟨.hbm, 271, rfl⟩
abbrev main_cst_75 : Ref sig .tc := ⟨.hbm, 272, rfl⟩
abbrev main_v195 : Ref sig .tc := ⟨.hbm, 273, rfl⟩
abbrev main_v196 : Ref sig .tc := ⟨.hbm, 274, rfl⟩
abbrev main_v197 : Ref sig .tc := ⟨.hbm, 275, rfl⟩
abbrev main_cst_76 : Ref sig .tc := ⟨.hbm, 276, rfl⟩
abbrev main_v198 : Ref sig .tc := ⟨.hbm, 277, rfl⟩
abbrev main_v199 : Ref sig .tc := ⟨.hbm, 278, rfl⟩
abbrev main_cst_77 : Ref sig .tc := ⟨.hbm, 279, rfl⟩
abbrev main_v200 : Ref sig .tc := ⟨.hbm, 280, rfl⟩
abbrev main_v201 : Ref sig .tc := ⟨.hbm, 281, rfl⟩
abbrev main_cst_78 : Ref sig .tc := ⟨.hbm, 282, rfl⟩
abbrev main_v202 : Ref sig .tc := ⟨.hbm, 283, rfl⟩
abbrev main_v203 : Ref sig .tc := ⟨.hbm, 284, rfl⟩
abbrev main_v204 : Ref sig .tc := ⟨.hbm, 285, rfl⟩
abbrev main_v205 : Ref sig .tc := ⟨.hbm, 286, rfl⟩
abbrev main_cst_79 : Ref sig .tc := ⟨.hbm, 287, rfl⟩
abbrev main_v206 : Ref sig .tc := ⟨.hbm, 288, rfl⟩
abbrev main_v207 : Ref sig .tc := ⟨.hbm, 289, rfl⟩
abbrev main_cst_80 : Ref sig .tc := ⟨.hbm, 290, rfl⟩
abbrev main_v208 : Ref sig .tc := ⟨.hbm, 291, rfl⟩
abbrev main_v209 : Ref sig .tc := ⟨.hbm, 292, rfl⟩
abbrev main_cst_81 : Ref sig .tc := ⟨.hbm, 293, rfl⟩
abbrev main_v210 : Ref sig .tc := ⟨.hbm, 294, rfl⟩
abbrev main_v211 : Ref sig .tc := ⟨.hbm, 295, rfl⟩
abbrev main_v212 : Ref sig .tc := ⟨.hbm, 296, rfl⟩
abbrev main_cst_82 : Ref sig .tc := ⟨.hbm, 297, rfl⟩
abbrev main_v213 : Ref sig .tc := ⟨.hbm, 298, rfl⟩
abbrev main_v214 : Ref sig .tc := ⟨.hbm, 299, rfl⟩
abbrev main_v215 : Ref sig .tc := ⟨.hbm, 300, rfl⟩
abbrev main_cst_83 : Ref sig .tc := ⟨.hbm, 301, rfl⟩
abbrev main_v216 : Ref sig .tc := ⟨.hbm, 302, rfl⟩
abbrev main_v217 : Ref sig .tc := ⟨.hbm, 303, rfl⟩
abbrev main_cst_84 : Ref sig .tc := ⟨.hbm, 304, rfl⟩
abbrev main_v218 : Ref sig .tc := ⟨.hbm, 305, rfl⟩
abbrev main_v219 : Ref sig .tc := ⟨.hbm, 306, rfl⟩
abbrev main_cst_85 : Ref sig .tc := ⟨.hbm, 307, rfl⟩
abbrev main_v220 : Ref sig .tc := ⟨.hbm, 308, rfl⟩
abbrev main_v221 : Ref sig .tc := ⟨.hbm, 309, rfl⟩
abbrev main_v222 : Ref sig .tc := ⟨.hbm, 310, rfl⟩
abbrev main_v223 : Ref sig .tc := ⟨.hbm, 311, rfl⟩
abbrev main_cst_86 : Ref sig .tc := ⟨.hbm, 312, rfl⟩
abbrev main_v224 : Ref sig .tc := ⟨.hbm, 313, rfl⟩
abbrev main_v225 : Ref sig .tc := ⟨.hbm, 314, rfl⟩
abbrev main_cst_87 : Ref sig .tc := ⟨.hbm, 315, rfl⟩
abbrev main_v226 : Ref sig .tc := ⟨.hbm, 316, rfl⟩
abbrev main_v227 : Ref sig .tc := ⟨.hbm, 317, rfl⟩
abbrev main_cst_88 : Ref sig .tc := ⟨.hbm, 318, rfl⟩
abbrev main_v228 : Ref sig .tc := ⟨.hbm, 319, rfl⟩
abbrev main_v229 : Ref sig .tc := ⟨.hbm, 320, rfl⟩
abbrev main_v230 : Ref sig .tc := ⟨.hbm, 321, rfl⟩
abbrev main_cst_89 : Ref sig .tc := ⟨.hbm, 322, rfl⟩
abbrev main_v231 : Ref sig .tc := ⟨.hbm, 323, rfl⟩
abbrev main_v232 : Ref sig .tc := ⟨.hbm, 324, rfl⟩
abbrev main_v233 : Ref sig .tc := ⟨.hbm, 325, rfl⟩
abbrev main_cst_90 : Ref sig .tc := ⟨.hbm, 326, rfl⟩
abbrev main_v234 : Ref sig .tc := ⟨.hbm, 327, rfl⟩
abbrev main_v235 : Ref sig .tc := ⟨.hbm, 328, rfl⟩
abbrev main_cst_91 : Ref sig .tc := ⟨.hbm, 329, rfl⟩
abbrev main_v236 : Ref sig .tc := ⟨.hbm, 330, rfl⟩
abbrev main_v237 : Ref sig .tc := ⟨.hbm, 331, rfl⟩
abbrev main_cst_92 : Ref sig .tc := ⟨.hbm, 332, rfl⟩
abbrev main_v238 : Ref sig .tc := ⟨.hbm, 333, rfl⟩
abbrev main_v239 : Ref sig .tc := ⟨.hbm, 334, rfl⟩
abbrev main_v240 : Ref sig .tc := ⟨.hbm, 335, rfl⟩
abbrev main_v241 : Ref sig .tc := ⟨.hbm, 336, rfl⟩
abbrev main_cst_93 : Ref sig .tc := ⟨.hbm, 337, rfl⟩
abbrev main_v242 : Ref sig .tc := ⟨.hbm, 338, rfl⟩
abbrev main_v243 : Ref sig .tc := ⟨.hbm, 339, rfl⟩
abbrev main_cst_94 : Ref sig .tc := ⟨.hbm, 340, rfl⟩
abbrev main_v244 : Ref sig .tc := ⟨.hbm, 341, rfl⟩
abbrev main_v245 : Ref sig .tc := ⟨.hbm, 342, rfl⟩
abbrev main_cst_95 : Ref sig .tc := ⟨.hbm, 343, rfl⟩
abbrev main_v246 : Ref sig .tc := ⟨.hbm, 344, rfl⟩
abbrev main_v247 : Ref sig .tc := ⟨.hbm, 345, rfl⟩
abbrev main_v248 : Ref sig .tc := ⟨.hbm, 346, rfl⟩
abbrev main_cst_96 : Ref sig .tc := ⟨.hbm, 347, rfl⟩
abbrev main_v249 : Ref sig .tc := ⟨.hbm, 348, rfl⟩
abbrev main_v250 : Ref sig .tc := ⟨.hbm, 349, rfl⟩
abbrev main_v251 : Ref sig .tc := ⟨.hbm, 350, rfl⟩
abbrev main_cst_97 : Ref sig .tc := ⟨.hbm, 351, rfl⟩
abbrev main_v252 : Ref sig .tc := ⟨.hbm, 352, rfl⟩
abbrev main_v253 : Ref sig .tc := ⟨.hbm, 353, rfl⟩
abbrev main_cst_98 : Ref sig .tc := ⟨.hbm, 354, rfl⟩
abbrev main_v254 : Ref sig .tc := ⟨.hbm, 355, rfl⟩
abbrev main_v255 : Ref sig .tc := ⟨.hbm, 356, rfl⟩
abbrev main_cst_99 : Ref sig .tc := ⟨.hbm, 357, rfl⟩
abbrev main_v256 : Ref sig .tc := ⟨.hbm, 358, rfl⟩
abbrev main_v257 : Ref sig .tc := ⟨.hbm, 359, rfl⟩
abbrev main_v258 : Ref sig .tc := ⟨.hbm, 360, rfl⟩
abbrev main_v259 : Ref sig .tc := ⟨.hbm, 361, rfl⟩
abbrev main_cst_100 : Ref sig .tc := ⟨.hbm, 362, rfl⟩
abbrev main_v260 : Ref sig .tc := ⟨.hbm, 363, rfl⟩
abbrev main_v261 : Ref sig .tc := ⟨.hbm, 364, rfl⟩
abbrev main_cst_101 : Ref sig .tc := ⟨.hbm, 365, rfl⟩
abbrev main_v262 : Ref sig .tc := ⟨.hbm, 366, rfl⟩
abbrev main_v263 : Ref sig .tc := ⟨.hbm, 367, rfl⟩
abbrev main_cst_102 : Ref sig .tc := ⟨.hbm, 368, rfl⟩
abbrev main_v264 : Ref sig .tc := ⟨.hbm, 369, rfl⟩
abbrev main_v265 : Ref sig .tc := ⟨.hbm, 370, rfl⟩
abbrev main_v266 : Ref sig .tc := ⟨.hbm, 371, rfl⟩
abbrev main_cst_103 : Ref sig .tc := ⟨.hbm, 372, rfl⟩
abbrev main_v267 : Ref sig .tc := ⟨.hbm, 373, rfl⟩
abbrev main_v268 : Ref sig .tc := ⟨.hbm, 374, rfl⟩
abbrev main_v269 : Ref sig .tc := ⟨.hbm, 375, rfl⟩
abbrev main_cst_104 : Ref sig .tc := ⟨.hbm, 376, rfl⟩
abbrev main_v270 : Ref sig .tc := ⟨.hbm, 377, rfl⟩
abbrev main_v271 : Ref sig .tc := ⟨.hbm, 378, rfl⟩
abbrev main_cst_105 : Ref sig .tc := ⟨.hbm, 379, rfl⟩
abbrev main_v272 : Ref sig .tc := ⟨.hbm, 380, rfl⟩
abbrev main_v273 : Ref sig .tc := ⟨.hbm, 381, rfl⟩
abbrev main_cst_106 : Ref sig .tc := ⟨.hbm, 382, rfl⟩
abbrev main_v274 : Ref sig .tc := ⟨.hbm, 383, rfl⟩
abbrev main_v275 : Ref sig .tc := ⟨.hbm, 384, rfl⟩
abbrev main_v276 : Ref sig .tc := ⟨.hbm, 385, rfl⟩
abbrev main_v277 : Ref sig .tc := ⟨.hbm, 386, rfl⟩
abbrev main_cst_107 : Ref sig .tc := ⟨.hbm, 387, rfl⟩
abbrev main_v278 : Ref sig .tc := ⟨.hbm, 388, rfl⟩
abbrev main_v279 : Ref sig .tc := ⟨.hbm, 389, rfl⟩
abbrev main_cst_108 : Ref sig .tc := ⟨.hbm, 390, rfl⟩
abbrev main_v280 : Ref sig .tc := ⟨.hbm, 391, rfl⟩
abbrev main_v281 : Ref sig .tc := ⟨.hbm, 392, rfl⟩
abbrev main_cst_109 : Ref sig .tc := ⟨.hbm, 393, rfl⟩
abbrev main_v282 : Ref sig .tc := ⟨.hbm, 394, rfl⟩
abbrev main_v283 : Ref sig .tc := ⟨.hbm, 395, rfl⟩
abbrev main_v284 : Ref sig .tc := ⟨.hbm, 396, rfl⟩
abbrev main_cst_110 : Ref sig .tc := ⟨.hbm, 397, rfl⟩
abbrev main_v285 : Ref sig .tc := ⟨.hbm, 398, rfl⟩
abbrev main_v286 : Ref sig .tc := ⟨.hbm, 399, rfl⟩
abbrev main_v287 : Ref sig .tc := ⟨.hbm, 400, rfl⟩
abbrev main_v288 : Ref sig .tc := ⟨.hbm, 401, rfl⟩
abbrev main_v289 : Ref sig .tc := ⟨.hbm, 402, rfl⟩
abbrev main_v290 : Ref sig .tc := ⟨.hbm, 403, rfl⟩
abbrev main_v291 : Ref sig .tc := ⟨.hbm, 404, rfl⟩
abbrev main_v292 : Ref sig .tc := ⟨.hbm, 405, rfl⟩
abbrev main_v293 : Ref sig .tc := ⟨.hbm, 406, rfl⟩
abbrev main_v294 : Ref sig .tc := ⟨.hbm, 407, rfl⟩
abbrev main_v295 : Ref sig .tc := ⟨.hbm, 408, rfl⟩
abbrev main_v296 : Ref sig .tc := ⟨.hbm, 409, rfl⟩
abbrev main_v297 : Ref sig .tc := ⟨.hbm, 410, rfl⟩
abbrev main_v298 : Ref sig .tc := ⟨.hbm, 411, rfl⟩
abbrev main_v299 : Ref sig .tc := ⟨.hbm, 412, rfl⟩
abbrev main_v300 : Ref sig .tc := ⟨.hbm, 413, rfl⟩
abbrev main_v301 : Ref sig .tc := ⟨.hbm, 414, rfl⟩
abbrev main_v302 : Ref sig .tc := ⟨.hbm, 415, rfl⟩
abbrev main_v303 : Ref sig .tc := ⟨.hbm, 416, rfl⟩
abbrev main_v304 : Ref sig .tc := ⟨.hbm, 417, rfl⟩

abbrev nD : Nat := 1
abbrev τ : Topo := Topo.v7x

variable {F : FTy → Type} [FloatOps F]

class Facts₀ : Prop where
  bcast_S_S512x4096 : S_.BroadcastsInDim S512x4096 (![] : Fin 0 → Fin S512x4096.rank)
  bcast_S512x4096_S512x4096x1_0_1 : S512x4096.BroadcastsInDim S512x4096x1 (![0, 1] : Fin 2 → Fin S512x4096x1.rank)
  concatenates_S512x4096x1_S512x4096x1_S512x4096x1_S512x4096x1_S512x4096x1_S512x4096x1_S512x4096x1_S512x4096x1_S512x4096x1_S512x4096x1_S512x4096x1_S512x4096x1_S512x4096x1_S512x4096x1_S512x4096x1_S512x4096x1_S512x4096x16_d2 : Shape.Concatenates [S512x4096x1, S512x4096x1, S512x4096x1, S512x4096x1, S512x4096x1, S512x4096x1, S512x4096x1, S512x4096x1, S512x4096x1, S512x4096x1, S512x4096x1, S512x4096x1, S512x4096x1, S512x4096x1, S512x4096x1, S512x4096x1] S512x4096x16 2

variable [Facts₀]

class Facts : Prop extends Facts₀ where

variable [Facts]
-- ==== Proof.Consts.lean ====
/-
  The float words the two programs spell, as the real numbers they denote: the sixteen powers of two
  2^15 … 2^0 that the cascade subtracts, the sixteen half-integer thresholds 2^k − 1/2 the kernel compares
  against, and the sharpness 20 of the reference's logistic. (1/2 and 1, which the reference's logistic and
  its comparison also use, are the last threshold and the last power.) Every pattern is a normal binary32
  number, so each is a dyadic rational computed from its sign, exponent and significand fields.
-/
import Idealize.ShloMosaic.PureOps.Ideal

noncomputable section

namespace Cert.BitCascade.Consts

open Idealize.ShloMosaic

/-- 2^15. -/
theorem pow_15 : Ideal.ofBits .f32 0x47000000#32 = ((32768 : ℝ) : EReal) := by
  simp [Ideal.ofBits, Ideal.ieee, -EReal.coe_mul]; norm_num

/-- 2^14. -/
theorem pow_14 : Ideal.ofBits .f32 0x46800000#32 = ((16384 : ℝ) : EReal) := by
  simp [Ideal.ofBits, Ideal.ieee, -EReal.coe_mul]; norm_num

/-- 2^13. -/
theorem pow_13 : Ideal.ofBits .f32 0x46000000#32 = ((8192 : ℝ) : EReal) := by
  simp [Ideal.ofBits, Ideal.ieee, -EReal.coe_mul]; norm_num

/-- 2^12. -/
theorem pow_12 : Ideal.ofBits .f32 0x45800000#32 = ((4096 : ℝ) : EReal) := by
  simp [Ideal.ofBits, Ideal.ieee, -EReal.coe_mul]; norm_num

/-- 2^11. -/
theorem pow_11 : Ideal.ofBits .f32 0x45000000#32 = ((2048 : ℝ) : EReal) := by
  simp [Ideal.ofBits, Ideal.ieee, -EReal.coe_mul]; norm_num

/-- 2^10. -/
theorem pow_10 : Ideal.ofBits .f32 0x44800000#32 = ((1024 : ℝ) : EReal) := by
  simp [Ideal.ofBits, Ideal.ieee, -EReal.coe_mul]; norm_num

/-- 2^9. -/
theorem pow_9 : Ideal.ofBits .f32 0x44000000#32 = ((512 : ℝ) : EReal) := by
  simp [Ideal.ofBits, Ideal.ieee, -EReal.coe_mul]; norm_num

/-- 2^8. -/
theorem pow_8 : Ideal.ofBits .f32 0x43800000#32 = ((256 : ℝ) : EReal) := by
  simp [Ideal.ofBits, Ideal.ieee, -EReal.coe_mul]; norm_num

/-- 2^7. -/
theorem pow_7 : Ideal.ofBits .f32 0x43000000#32 = ((128 : ℝ) : EReal) := by
  simp [Ideal.ofBits, Ideal.ieee, -EReal.coe_mul]; norm_num

/-- 2^6. -/
theorem pow_6 : Ideal.ofBits .f32 0x42800000#32 = ((64 : ℝ) : EReal) := by
  simp [Ideal.ofBits, Ideal.ieee, -EReal.coe_mul]; norm_num

/-- 2^5. -/
theorem pow_5 : Ideal.ofBits .f32 0x42000000#32 = ((32 : ℝ) : EReal) := by
  simp [Ideal.ofBits, Ideal.ieee, -EReal.coe_mul]; norm_num

/-- 2^4. -/
theorem pow_4 : Ideal.ofBits .f32 0x41800000#32 = ((16 : ℝ) : EReal) := by
  simp [Ideal.ofBits, Ideal.ieee, -EReal.coe_mul]; norm_num

/-- 2^3. -/
theorem pow_3 : Ideal.ofBits .f32 0x41000000#32 = ((8 : ℝ) : EReal) := by
  simp [Ideal.ofBits, Ideal.ieee, -EReal.coe_mul]; norm_num

/-- 2^2. -/
theorem pow_2 : Ideal.ofBits .f32 0x40800000#32 = ((4 : ℝ) : EReal) := by
  simp [Ideal.ofBits, Ideal.ieee, -EReal.coe_mul]; norm_num

/-- 2^1. -/
theorem pow_1 : Ideal.ofBits .f32 0x40000000#32 = ((2 : ℝ) : EReal) := by
  simp [Ideal.ofBits, Ideal.ieee, -EReal.coe_mul]; norm_num

/-- 2^0. -/
theorem pow_0 : Ideal.ofBits .f32 0x3F800000#32 = ((1 : ℝ) : EReal) := by
  simp [Ideal.ofBits, Ideal.ieee, -EReal.coe_mul]; norm_num

/-- 2^15 − 1/2 = 65535/2. -/
theorem thr_15 : Ideal.ofBits .f32 0x46FFFF00#32 = ((65535 / 2 : ℝ) : EReal) := by
  simp [Ideal.ofBits, Ideal.ieee, -EReal.coe_mul]; norm_num

/-- 2^14 − 1/2 = 32767/2. -/
theorem thr_14 : Ideal.ofBits .f32 0x467FFE00#32 = ((32767 / 2 : ℝ) : EReal) := by
  simp [Ideal.ofBits, Ideal.ieee, -EReal.coe_mul]; norm_num

/-- 2^13 − 1/2 = 16383/2. -/
theorem thr_13 : Ideal.ofBits .f32 0x45FFFC00#32 = ((16383 / 2 : ℝ) : EReal) := by
  simp [Ideal.ofBits, Ideal.ieee, -EReal.coe_mul]; norm_num

/-- 2^12 − 1/2 = 8191/2. -/
theorem thr_12 : Ideal.ofBits .f32 0x457FF800#32 = ((8191 / 2 : ℝ) : EReal) := by
  simp [Ideal.ofBits, Ideal.ieee, -EReal.coe_mul]; norm_num

/-- 2^11 − 1/2 = 4095/2. -/
theorem thr_11 : Ideal.ofBits .f32 0x44FFF000#32 = ((4095 / 2 : ℝ) : EReal) := by
  simp [Ideal.ofBits, Ideal.ieee, -EReal.coe_mul]; norm_num

/-- 2^10 − 1/2 = 2047/2. -/
theorem thr_10 : Ideal.ofBits .f32 0x447FE000#32 = ((2047 / 2 : ℝ) : EReal) := by
  simp [Ideal.ofBits, Ideal.ieee, -EReal.coe_mul]; norm_num

/-- 2^9 − 1/2 = 1023/2. -/
theorem thr_9 : Ideal.ofBits .f32 0x43FFC000#32 = ((1023 / 2 : ℝ) : EReal) := by
  simp [Ideal.ofBits, Ideal.ieee, -EReal.coe_mul]; norm_num

/-- 2^8 − 1/2 = 511/2. -/
theorem thr_8 : Ideal.ofBits .f32 0x437F8000#32 = ((511 / 2 : ℝ) : EReal) := by
  simp [Ideal.ofBits, Ideal.ieee, -EReal.coe_mul]; norm_num

/-- 2^7 − 1/2 = 255/2. -/
theorem thr_7 : Ideal.ofBits .f32 0x42FF0000#32 = ((255 / 2 : ℝ) : EReal) := by
  simp [Ideal.ofBits, Ideal.ieee, -EReal.coe_mul]; norm_num

/-- 2^6 − 1/2 = 127/2. -/
theorem thr_6 : Ideal.ofBits .f32 0x427E0000#32 = ((127 / 2 : ℝ) : EReal) := by
  simp [Ideal.ofBits, Ideal.ieee, -EReal.coe_mul]; norm_num

/-- 2^5 − 1/2 = 63/2. -/
theorem thr_5 : Ideal.ofBits .f32 0x41FC0000#32 = ((63 / 2 : ℝ) : EReal) := by
  simp [Ideal.ofBits, Ideal.ieee, -EReal.coe_mul]; norm_num

/-- 2^4 − 1/2 = 31/2. -/
theorem thr_4 : Ideal.ofBits .f32 0x41780000#32 = ((31 / 2 : ℝ) : EReal) := by
  simp [Ideal.ofBits, Ideal.ieee, -EReal.coe_mul]; norm_num

/-- 2^3 − 1/2 = 15/2. -/
theorem thr_3 : Ideal.ofBits .f32 0x40F00000#32 = ((15 / 2 : ℝ) : EReal) := by
  simp [Ideal.ofBits, Ideal.ieee, -EReal.coe_mul]; norm_num

/-- 2^2 − 1/2 = 7/2. -/
theorem thr_2 : Ideal.ofBits .f32 0x40600000#32 = ((7 / 2 : ℝ) : EReal) := by
  simp [Ideal.ofBits, Ideal.ieee, -EReal.coe_mul]; norm_num

/-- 2^1 − 1/2 = 3/2. -/
theorem thr_1 : Ideal.ofBits .f32 0x3FC00000#32 = ((3 / 2 : ℝ) : EReal) := by
  simp [Ideal.ofBits, Ideal.ieee, -EReal.coe_mul]; norm_num

/-- 2^0 − 1/2 = 1/2. -/
theorem thr_0 : Ideal.ofBits .f32 0x3F000000#32 = ((1 / 2 : ℝ) : EReal) := by
  simp [Ideal.ofBits, Ideal.ieee, -EReal.coe_mul]; norm_num

/-- 20, the logistic's sharpness. -/
theorem twenty : Ideal.ofBits .f32 0x41A00000#32 = ((20 : ℝ) : EReal) := by
  simp [Ideal.ofBits, Ideal.ieee, -EReal.coe_mul]; norm_num

end Cert.BitCascade.Consts

end
-- ==== Proof.Cascade.lean ====
/-
  The cascade both programs run on every entry of the [512, 4096] input, as one function on the extended reals.

  Sixteen steps, most significant bit first. Step n (n = 0 … 15) works on bit k = 15 − n: it tests the remainder r
  against 2^k, emits 1 or 0, and subtracts that times 2^k. The kernel's test is the comparison r > 2^k − 1/2. The
  reference's test is logistic(20 · (r − 2^k + 1/2)) > 1/2, the logistic spelled 1 / (1 + exp (−y)). On a REAL
  remainder the two tests are one: exp (−y) is a positive real, so 1 / (1 + exp (−y)) > 1/2 iff exp (−y) < 1 iff
  y > 0 iff r > 2^k − 1/2. A real input keeps every remainder real (a real minus 0 or 1 times a power of two), so by
  induction over the steps the two cascades emit the same sixteen bits. Finiteness of the input is what this uses.
-/
import Idealize.ShloMosaic.PureOps.Ideal
import Idealize.ShloMosaic.Lib.ValueIdx
import proofs.«133619_j62380105007549_2_alg».proof.Proof.Consts

noncomputable section

namespace Cert.BitCascade

open Idealize.ShloMosaic Idealize.ShloMosaic.ValueIdx

/-- The binary32 word of 2^(15 − n): the power that step n subtracts. -/
def powWord : Nat → BitVec 32
  | 0 => 0x47000000#32
  | 1 => 0x46800000#32
  | 2 => 0x46000000#32
  | 3 => 0x45800000#32
  | 4 => 0x45000000#32
  | 5 => 0x44800000#32
  | 6 => 0x44000000#32
  | 7 => 0x43800000#32
  | 8 => 0x43000000#32
  | 9 => 0x42800000#32
  | 10 => 0x42000000#32
  | 11 => 0x41800000#32
  | 12 => 0x41000000#32
  | 13 => 0x40800000#32
  | 14 => 0x40000000#32
  | _ => 0x3F800000#32

/-- The binary32 word of 2^(15 − n) − 1/2: the threshold the kernel's step n compares against. -/
def thrWord : Nat → BitVec 32
  | 0 => 0x46FFFF00#32
  | 1 => 0x467FFE00#32
  | 2 => 0x45FFFC00#32
  | 3 => 0x457FF800#32
  | 4 => 0x44FFF000#32
  | 5 => 0x447FE000#32
  | 6 => 0x43FFC000#32
  | 7 => 0x437F8000#32
  | 8 => 0x42FF0000#32
  | 9 => 0x427E0000#32
  | 10 => 0x41FC0000#32
  | 11 => 0x41780000#32
  | 12 => 0x40F00000#32
  | 13 => 0x40600000#32
  | 14 => 0x3FC00000#32
  | _ => 0x3F000000#32

/-- The kernel's test at step n on a real remainder, as a real: the comparison bit of r > 2^k − 1/2, widened to 32 bits
    and read as a signed integer. -/
def kbitR (n : Nat) (y : ℝ) : ℝ :=
  ((((Ideal.cmp .ogt (y : EReal) (Ideal.ofBits .f32 (thrWord n))).setWidth 32).toInt : ℤ) : ℝ)

/-- The kernel's test at step n: 1 when the remainder is above 2^k − 1/2, else 0. -/
def kbit (n : Nat) (r : EReal) : EReal :=
  (((((Ideal.cmp .ogt r (Ideal.ofBits .f32 (thrWord n))).setWidth 32).toInt : ℤ) : ℝ) : EReal)

/-- The reference's test at step n: 1 when 1 / (1 + exp (−20 · (r − 2^k + 1/2))) is above 1/2, else 0 (the comparison
    bit read as an unsigned integer). -/
def rbit (n : Nat) (r : EReal) : EReal :=
  ((((Ideal.cmp .ogt
      (Ideal.div (Ideal.ofBits .f32 0x3F800000#32)
        (Ideal.ofBits .f32 0x3F800000#32
          + Ideal.exp (-(Ideal.ofBits .f32 0x41A00000#32 * ((r - Ideal.ofBits .f32 (powWord n)) + Ideal.ofBits .f32 0x3F000000#32)))))
      (Ideal.ofBits .f32 0x3F000000#32)).toNat : ℕ) : ℝ) : EReal)

/-- The remainder after the first n steps of the cascade whose test is bit. -/
def remAfter (bit : Nat → EReal → EReal) (x : EReal) : Nat → EReal
  | 0 => x
  | n + 1 => remAfter bit x n - bit n (remAfter bit x n) * Ideal.ofBits .f32 (powWord n)

/-- What step n emits. -/
def bitAt (bit : Nat → EReal → EReal) (x : EReal) (n : Nat) : EReal := bit n (remAfter bit x n)

theorem remAfter_succ (bit : Nat → EReal → EReal) (x : EReal) (n : Nat) :
    remAfter bit x (n + 1) = remAfter bit x n - bitAt bit x n * Ideal.ofBits .f32 (powWord n) := rfl

theorem kbit_coe (n : Nat) (y : ℝ) : kbit n (y : EReal) = ((kbitR n y : ℝ) : EReal) := rfl

/-- The words' values: step n's power is a real t = 2^(15 − n) and its threshold is t − 1/2. -/
theorem words_val : ∀ n, n < 16 → ∃ t : ℝ, Ideal.ofBits .f32 (powWord n) = (t : EReal)
      ∧ Ideal.ofBits .f32 (thrWord n) = ((t - 1 / 2 : ℝ) : EReal)
  | 0, _ => ⟨32768, Consts.pow_15, by show Ideal.ofBits .f32 0x46FFFF00#32 = _; rw [Consts.thr_15]; norm_num⟩
  | 1, _ => ⟨16384, Consts.pow_14, by show Ideal.ofBits .f32 0x467FFE00#32 = _; rw [Consts.thr_14]; norm_num⟩
  | 2, _ => ⟨8192, Consts.pow_13, by show Ideal.ofBits .f32 0x45FFFC00#32 = _; rw [Consts.thr_13]; norm_num⟩
  | 3, _ => ⟨4096, Consts.pow_12, by show Ideal.ofBits .f32 0x457FF800#32 = _; rw [Consts.thr_12]; norm_num⟩
  | 4, _ => ⟨2048, Consts.pow_11, by show Ideal.ofBits .f32 0x44FFF000#32 = _; rw [Consts.thr_11]; norm_num⟩
  | 5, _ => ⟨1024, Consts.pow_10, by show Ideal.ofBits .f32 0x447FE000#32 = _; rw [Consts.thr_10]; norm_num⟩
  | 6, _ => ⟨512, Consts.pow_9, by show Ideal.ofBits .f32 0x43FFC000#32 = _; rw [Consts.thr_9]; norm_num⟩
  | 7, _ => ⟨256, Consts.pow_8, by show Ideal.ofBits .f32 0x437F8000#32 = _; rw [Consts.thr_8]; norm_num⟩
  | 8, _ => ⟨128, Consts.pow_7, by show Ideal.ofBits .f32 0x42FF0000#32 = _; rw [Consts.thr_7]; norm_num⟩
  | 9, _ => ⟨64, Consts.pow_6, by show Ideal.ofBits .f32 0x427E0000#32 = _; rw [Consts.thr_6]; norm_num⟩
  | 10, _ => ⟨32, Consts.pow_5, by show Ideal.ofBits .f32 0x41FC0000#32 = _; rw [Consts.thr_5]; norm_num⟩
  | 11, _ => ⟨16, Consts.pow_4, by show Ideal.ofBits .f32 0x41780000#32 = _; rw [Consts.thr_4]; norm_num⟩
  | 12, _ => ⟨8, Consts.pow_3, by show Ideal.ofBits .f32 0x40F00000#32 = _; rw [Consts.thr_3]; norm_num⟩
  | 13, _ => ⟨4, Consts.pow_2, by show Ideal.ofBits .f32 0x40600000#32 = _; rw [Consts.thr_2]; norm_num⟩
  | 14, _ => ⟨2, Consts.pow_1, by show Ideal.ofBits .f32 0x3FC00000#32 = _; rw [Consts.thr_1]; norm_num⟩
  | 15, _ => ⟨1, Consts.pow_0, by show Ideal.ofBits .f32 0x3F000000#32 = _; rw [Consts.thr_0]; norm_num⟩
  | n + 16, h => absurd h (by omega)

/-- A comparison bit read as an unsigned integer is 1 or 0. -/
theorem ofBool_toNat_cast (p : Bool) : (((BitVec.ofBool p).toNat : ℕ) : ℝ) = if p then 1 else 0 := by
  cases p <;> simp

/-- A comparison bit widened to 32 bits and read as a signed integer is 1 or 0. -/
theorem ofBool_setWidth_toInt_cast (p : Bool) : ((((BitVec.ofBool p).setWidth 32).toInt : ℤ) : ℝ) = if p then 1 else 0 := by
  have h : ((BitVec.ofBool p).setWidth 32).toInt = if p then 1 else 0 := by cases p <;> decide
  rw [h]; cases p <;> simp

/-- The logistic is above 1/2 exactly on the positive reals. -/
theorem logistic_gt_half_iff (y : ℝ) : 1 / 2 < 1 * (1 / (1 + Real.exp (-y))) ↔ 0 < y := by
  have hE := Real.exp_pos (-y)
  rw [one_mul, lt_div_iff₀ (by linarith)]
  constructor
  · intro h
    have h1 : Real.exp (-y) < Real.exp 0 := by rw [Real.exp_zero]; linarith
    have h2 := Real.exp_lt_exp.mp h1
    linarith
  · intro h
    have h1 : Real.exp (-y) < Real.exp 0 := Real.exp_lt_exp.mpr (by linarith)
    rw [Real.exp_zero] at h1; linarith

/-- On a real remainder the kernel's test and the reference's test are one. -/
theorem kbit_eq_rbit (n : Nat) (hn : n < 16) (x : ℝ) : kbit n (x : EReal) = rbit n (x : EReal) := by
  obtain ⟨t, hT, hθ⟩ := words_val n hn
  unfold kbit rbit
  rw [hT, hθ, Consts.pow_0, Consts.thr_0, Consts.twenty]
  have hpos : (1 + Real.exp (-(20 * (x - t + 1 / 2))) : ℝ) ≠ 0 := ne_of_gt (by have := Real.exp_pos (-(20 * (x - t + 1 / 2))); linarith)
  rw [← EReal.coe_sub, ← EReal.coe_add, ← EReal.coe_mul, ← EReal.coe_neg, Ideal.exp_coe, ← EReal.coe_add,
    Ideal.div_coe hpos, ← EReal.coe_mul]
  unfold Ideal.cmp
  dsimp only
  rw [ofBool_setWidth_toInt_cast, ofBool_toNat_cast]
  simp only [EReal.coe_lt_coe_iff, decide_eq_true_eq]
  have key : (t - 1 / 2 < x) ↔ (1 / 2 < 1 * (1 / (1 + Real.exp (-(20 * (x - t + 1 / 2)))))) := by
    rw [logistic_gt_half_iff]; constructor <;> intro h <;> linarith
  by_cases h : t - 1 / 2 < x
  · rw [if_pos h, if_pos (key.mp h)]
  · rw [if_neg h, if_neg (fun h' => h (key.mpr h'))]

/-- From a real input every remainder of the kernel's cascade is real, and the reference's cascade has the same
    remainders. -/
theorem cascade_agree (x : ℝ) : ∀ n, n ≤ 16 →
    (∃ y : ℝ, remAfter kbit (x : EReal) n = (y : EReal)) ∧ remAfter kbit (x : EReal) n = remAfter rbit (x : EReal) n
  | 0, _ => ⟨⟨x, rfl⟩, rfl⟩
  | n + 1, hn => by
    obtain ⟨⟨y, hy⟩, he⟩ := cascade_agree x n (by omega)
    obtain ⟨t, hT, -⟩ := words_val n (by omega)
    have hb := kbit_eq_rbit n (by omega) y
    refine ⟨⟨y - kbitR n y * t, ?_⟩, ?_⟩
    · rw [remAfter_succ]; unfold bitAt
      rw [hy, hT, kbit_coe, ← EReal.coe_mul, ← EReal.coe_sub]
    · rw [remAfter_succ, remAfter_succ]; unfold bitAt
      rw [← he, hy, hb]

/-- So the two cascades emit the same bit at every step. -/
theorem bitAt_agree (x : ℝ) (n : Nat) (hn : n < 16) : bitAt kbit (x : EReal) n = bitAt rbit (x : EReal) n := by
  obtain ⟨⟨y, hy⟩, he⟩ := cascade_agree x n (by omega)
  unfold bitAt
  rw [← he, hy]
  exact kbit_eq_rbit n hn y

/-- THE RESULT as one function of the input array: entry (r, c, k) is the bit that step 15 − k of the cascade emits on
    entry (r, c) of the input. -/
def G (x : (⟨2, ![512, 4096]⟩ : Shape).Idx → EReal) : (⟨3, ![512, 4096, 16]⟩ : Shape).Idx → EReal :=
  fun i => bitAt kbit (x (ix2 (i 0) (i 1))) (15 - (i 2).val)

end Cert.BitCascade

end
-- ==== Proof.KernelPay.lean ====
/-
  The kernel body's arithmetic, read at one entry of the block. Every value the body computes before the final
  re-layout is a [128, 1024] vector obtained from the loaded block by pointwise operations, so at an index j each is
  a step of the cascade (Cascade.lean) run on the block's entry at j: the comparison results are the emitted bits, the
  subtraction results the remainders. The generated skeleton names these values one by one; each lemma below identifies
  one of them, using the one before it.

  The last payload stacks the sixteen bit vectors along a new trailing axis, least significant first, and flattens
  [128, 1024, 16] to [128, 16384] row-major: entry (p, 16·c + k) of the stored block is bit k — cascade step 15 − k —
  of entry (p, c) of the loaded block.
-/
import proofs.«133619_j62380105007549_2_alg».proof.Proof.Gen.KernelIdeal.Skeleton
import proofs.«133619_j62380105007549_2_alg».proof.Proof.Cascade
import Idealize.ShloMosaic.Lib.ValueIdx
import Idealize.ShloMosaic.Lib.Pipeline.Value

noncomputable section

namespace Cert.KernelIdeal.Hand

open Cert.KernelIdeal Cert.KernelIdeal.Gen Cert.BitCascade
open Idealize.ShloMosaic Idealize.ShloMosaic.ValueIdx

/-! ## The first six steps, from the loaded block -/

section FirstPart
variable (v0 : Vec Ideal S128x1024 .f32) (j : S128x1024.Idx)

theorem pay2_at : k0_pay2 (F := Ideal) v0 j = bitAt kbit (v0 j) 0 := rfl

theorem pay3_at : k0_pay3 (F := Ideal) v0 j = remAfter kbit (v0 j) 1 := by
  show _ = remAfter kbit (v0 j) 0 - bitAt kbit (v0 j) 0 * Ideal.ofBits .f32 (powWord 0)
  rw [← pay2_at v0 j]; rfl

theorem pay4_at : k0_pay4 (F := Ideal) v0 j = bitAt kbit (v0 j) 1 := by
  unfold bitAt; rw [← pay3_at v0 j]; rfl

theorem pay5_at : k0_pay5 (F := Ideal) v0 j = remAfter kbit (v0 j) 2 := by
  show _ = remAfter kbit (v0 j) 1 - bitAt kbit (v0 j) 1 * Ideal.ofBits .f32 (powWord 1)
  rw [← pay4_at v0 j, ← pay3_at v0 j]; rfl

theorem pay6_at : k0_pay6 (F := Ideal) v0 j = bitAt kbit (v0 j) 2 := by
  unfold bitAt; rw [← pay5_at v0 j]; rfl

theorem pay7_at : k0_pay7 (F := Ideal) v0 j = remAfter kbit (v0 j) 3 := by
  show _ = remAfter kbit (v0 j) 2 - bitAt kbit (v0 j) 2 * Ideal.ofBits .f32 (powWord 2)
  rw [← pay6_at v0 j, ← pay5_at v0 j]; rfl

theorem pay8_at : k0_pay8 (F := Ideal) v0 j = bitAt kbit (v0 j) 3 := by
  unfold bitAt; rw [← pay7_at v0 j]; rfl

theorem pay9_at : k0_pay9 (F := Ideal) v0 j = remAfter kbit (v0 j) 4 := by
  show _ = remAfter kbit (v0 j) 3 - bitAt kbit (v0 j) 3 * Ideal.ofBits .f32 (powWord 3)
  rw [← pay8_at v0 j, ← pay7_at v0 j]; rfl

theorem pay10_at : k0_pay10 (F := Ideal) v0 j = bitAt kbit (v0 j) 4 := by
  unfold bitAt; rw [← pay9_at v0 j]; rfl

theorem pay11_at : k0_pay11 (F := Ideal) v0 j = remAfter kbit (v0 j) 5 := by
  show _ = remAfter kbit (v0 j) 4 - bitAt kbit (v0 j) 4 * Ideal.ofBits .f32 (powWord 4)
  rw [← pay10_at v0 j, ← pay9_at v0 j]; rfl

theorem pay12_at : k0_pay12 (F := Ideal) v0 j = bitAt kbit (v0 j) 5 := by
  unfold bitAt; rw [← pay11_at v0 j]; rfl

theorem pay13_at : k0_pay13 (F := Ideal) v0 j = remAfter kbit (v0 j) 6 := by
  show _ = remAfter kbit (v0 j) 5 - bitAt kbit (v0 j) 5 * Ideal.ofBits .f32 (powWord 5)
  rw [← pay12_at v0 j, ← pay11_at v0 j]; rfl

end FirstPart

/-! ## Steps six to twelve, from the remainder after six steps -/

section SecondPart
variable (v42 : FVec Ideal S128x1024 .f32) (j : S128x1024.Idx) (x : EReal) (h : v42 j = remAfter kbit x 6)
include h

theorem pay14_at : k0_pay14 (F := Ideal) v42 (Scalar.ofBits .f32 0x43FFC000#32) j = bitAt kbit x 6 := by
  unfold bitAt; rw [← h]; rfl

theorem pay15_at : k0_pay15 (F := Ideal) v42 (Scalar.ofBits .f32 0x43FFC000#32) j = remAfter kbit x 7 := by
  show _ = remAfter kbit x 6 - bitAt kbit x 6 * Ideal.ofBits .f32 (powWord 6)
  rw [← pay14_at v42 j x h, ← h]; rfl

theorem pay16_at : k0_pay16 (F := Ideal) v42 (Scalar.ofBits .f32 0x43FFC000#32) j = bitAt kbit x 7 := by
  unfold bitAt; rw [← pay15_at v42 j x h]; rfl

theorem pay17_at : k0_pay17 (F := Ideal) v42 (Scalar.ofBits .f32 0x43FFC000#32) j = remAfter kbit x 8 := by
  show _ = remAfter kbit x 7 - bitAt kbit x 7 * Ideal.ofBits .f32 (powWord 7)
  rw [← pay16_at v42 j x h, ← pay15_at v42 j x h]; rfl

theorem pay18_at : k0_pay18 (F := Ideal) v42 (Scalar.ofBits .f32 0x43FFC000#32) j = bitAt kbit x 8 := by
  unfold bitAt; rw [← pay17_at v42 j x h]; rfl

theorem pay19_at : k0_pay19 (F := Ideal) v42 (Scalar.ofBits .f32 0x43FFC000#32) j = remAfter kbit x 9 := by
  show _ = remAfter kbit x 8 - bitAt kbit x 8 * Ideal.ofBits .f32 (powWord 8)
  rw [← pay18_at v42 j x h, ← pay17_at v42 j x h]; rfl

theorem pay20_at : k0_pay20 (F := Ideal) v42 (Scalar.ofBits .f32 0x43FFC000#32) j = bitAt kbit x 9 := by
  unfold bitAt; rw [← pay19_at v42 j x h]; rfl

theorem pay21_at : k0_pay21 (F := Ideal) v42 (Scalar.ofBits .f32 0x43FFC000#32) j = remAfter kbit x 10 := by
  show _ = remAfter kbit x 9 - bitAt kbit x 9 * Ideal.ofBits .f32 (powWord 9)
  rw [← pay20_at v42 j x h, ← pay19_at v42 j x h]; rfl

theorem pay22_at : k0_pay22 (F := Ideal) v42 (Scalar.ofBits .f32 0x43FFC000#32) j = bitAt kbit x 10 := by
  unfold bitAt; rw [← pay21_at v42 j x h]; rfl

theorem pay23_at : k0_pay23 (F := Ideal) v42 (Scalar.ofBits .f32 0x43FFC000#32) j = remAfter kbit x 11 := by
  show _ = remAfter kbit x 10 - bitAt kbit x 10 * Ideal.ofBits .f32 (powWord 10)
  rw [← pay22_at v42 j x h, ← pay21_at v42 j x h]; rfl

theorem pay24_at : k0_pay24 (F := Ideal) v42 (Scalar.ofBits .f32 0x43FFC000#32) j = bitAt kbit x 11 := by
  unfold bitAt; rw [← pay23_at v42 j x h]; rfl

theorem pay25_at : k0_pay25 (F := Ideal) v42 (Scalar.ofBits .f32 0x43FFC000#32) j = remAfter kbit x 12 := by
  show _ = remAfter kbit x 11 - bitAt kbit x 11 * Ideal.ofBits .f32 (powWord 11)
  rw [← pay24_at v42 j x h, ← pay23_at v42 j x h]; rfl

theorem pay26_at : k0_pay26 (F := Ideal) v42 (Scalar.ofBits .f32 0x43FFC000#32) j = bitAt kbit x 12 := by
  unfold bitAt; rw [← pay25_at v42 j x h]; rfl

end SecondPart

theorem pay27_at (j : S128x1024.Idx) : k0_pay27 (F := Ideal) j = Ideal.ofBits .f32 (powWord 12) := rfl

end Cert.KernelIdeal.Hand

end
-- ==== Proof.KernelStack.lean ====
/-
  The body's last payload at an entry. It finishes the cascade — steps thirteen to fifteen, from the remainder after
  twelve steps, the bit of step twelve and the splat of 2^3 — and then stacks the sixteen bit vectors along a new
  trailing axis, least significant first, and flattens [128, 1024, 16] to [128, 16384] row-major. Read at
  (p, 16·c + k) the stored block is therefore piece k of the stack at (p, c): the bit of step 15 − k.
-/
import proofs.«133619_j62380105007549_2_alg».proof.Proof.KernelPay

noncomputable section

namespace Cert.KernelIdeal.Hand

open Cert.KernelIdeal Cert.KernelIdeal.Gen Cert.BitCascade
open Idealize.ShloMosaic Idealize.ShloMosaic.ValueIdx

/-- The kernel's test of step n, on a whole vector. -/
def stepBit (n : Nat) (r : FVec Ideal S128x1024 .f32) : FVec Ideal S128x1024 .f32 := fun j => kbit n (r j)

/-- The subtraction of step n, on whole vectors. -/
def stepRem (n : Nat) (r b : FVec Ideal S128x1024 .f32) : FVec Ideal S128x1024 .f32 :=
  fun j => r j - b j * Ideal.ofBits .f32 (powWord n)

section LastSteps
variable (v84 v88 v89 : FVec Ideal S128x1024 .f32)

/-- The remainder after thirteen steps, from the remainder after twelve, step twelve's bit and the splat of 2^3. -/
def r13 : FVec Ideal S128x1024 .f32 := fun j => v84 j - v88 j * v89 j
def b13 : FVec Ideal S128x1024 .f32 := stepBit 13 (r13 v84 v88 v89)
def r14 : FVec Ideal S128x1024 .f32 := stepRem 13 (r13 v84 v88 v89) (b13 v84 v88 v89)
def b14 : FVec Ideal S128x1024 .f32 := stepBit 14 (r14 v84 v88 v89)
def r15 : FVec Ideal S128x1024 .f32 := stepRem 14 (r14 v84 v88 v89) (b14 v84 v88 v89)
def b15 : FVec Ideal S128x1024 .f32 := stepBit 15 (r15 v84 v88 v89)

variable (j : S128x1024.Idx) (x : EReal)
  (h84 : v84 j = remAfter kbit x 12) (h88 : v88 j = bitAt kbit x 12) (h89 : v89 j = Ideal.ofBits .f32 (powWord 12))
include h84 h88 h89

theorem r13_at : r13 v84 v88 v89 j = remAfter kbit x 13 := by
  show v84 j - v88 j * v89 j = remAfter kbit x 12 - bitAt kbit x 12 * Ideal.ofBits .f32 (powWord 12)
  rw [h84, h88, h89]

theorem b13_at : b13 v84 v88 v89 j = bitAt kbit x 13 := by
  show kbit 13 (r13 v84 v88 v89 j) = _
  rw [r13_at v84 v88 v89 j x h84 h88 h89]; rfl

theorem r14_at : r14 v84 v88 v89 j = remAfter kbit x 14 := by
  show r13 v84 v88 v89 j - b13 v84 v88 v89 j * _ = remAfter kbit x 13 - bitAt kbit x 13 * Ideal.ofBits .f32 (powWord 13)
  rw [r13_at v84 v88 v89 j x h84 h88 h89, b13_at v84 v88 v89 j x h84 h88 h89]

theorem b14_at : b14 v84 v88 v89 j = bitAt kbit x 14 := by
  show kbit 14 (r14 v84 v88 v89 j) = _
  rw [r14_at v84 v88 v89 j x h84 h88 h89]; rfl

theorem r15_at : r15 v84 v88 v89 j = remAfter kbit x 15 := by
  show r14 v84 v88 v89 j - b14 v84 v88 v89 j * _ = remAfter kbit x 14 - bitAt kbit x 14 * Ideal.ofBits .f32 (powWord 14)
  rw [r14_at v84 v88 v89 j x h84 h88 h89, b14_at v84 v88 v89 j x h84 h88 h89]

theorem b15_at : b15 v84 v88 v89 j = bitAt kbit x 15 := by
  show kbit 15 (r15 v84 v88 v89 j) = _
  rw [r15_at v84 v88 v89 j x h84 h88 h89]; rfl

end LastSteps

/-! ## The stack -/

/-- Sixteen [128, 1024] vectors stacked along a new trailing axis (piece n at trailing coordinate n) and flattened
    row-major to [128, 16384]. -/
def stack (b : Fin 16 → FVec Ideal S128x1024 .f32) : FVec Ideal S128x16384 .f32 :=
  shapeCast S128x16384
    (concatenate S128x1024x16 2
      (List.ofFn fun n : Fin 16 => (⟨S128x1024x1, shapeCast S128x1024x1 (b n) Facts₀.shapeCasts_S128x1024_S128x1024x1⟩ : (s : Shape) × (s.Idx → EReal)))
      Facts₀.concatenates_S128x1024x1_S128x1024x1_S128x1024x1_S128x1024x1_S128x1024x1_S128x1024x1_S128x1024x1_S128x1024x1_S128x1024x1_S128x1024x1_S128x1024x1_S128x1024x1_S128x1024x1_S128x1024x1_S128x1024x1_S128x1024x1_S128x1024x16_d2)
    Facts₀.shapeCasts_S128x1024x16_S128x16384

/-- The stack at (p, 16·c + k) is piece k at (p, c). -/
theorem stack_at (b : Fin 16 → FVec Ideal S128x1024 .f32) (p : Fin 128) (c : Fin 1024) (k : Fin 16) (q : Fin 16384)
    (hq : q.val = 16 * c.val + k.val) : stack b (ix2 p q) = b k (ix2 p c) := by
  unfold stack
  rw [shapeCast_apply _ _ (ix2 p q) (ix3 p c k) (by
    rw [Shape.rowMajor_val_three, Shape.rowMajor_val_two]
    show (p.val * 1024 + c.val) * 16 + k.val = p.val * 16384 + q.val
    omega)]
  refine (concatenate_ofFn_unit_apply (t := S128x1024x16) (s₁ := S128x1024x1) (2 : Fin 3)
    (fun n : Fin 16 => shapeCast S128x1024x1 (b n) Facts₀.shapeCasts_S128x1024_S128x1024x1) _ rfl rfl (ix3 p c k) k rfl (ix3 p c (0 : Fin 1)) (fun a ha => by
    match a with
    | ⟨0, _⟩ => rfl
    | ⟨1, _⟩ => rfl
    | ⟨2, _⟩ => exact absurd rfl ha)).trans ?_
  exact shapeCast_apply _ _ (ix3 p c (0 : Fin 1)) (ix2 p c) (by
    rw [Shape.rowMajor_val_three, Shape.rowMajor_val_two]
    show p.val * 1024 + c.val = (p.val * 1024 + c.val) * 1 + 0
    omega)

/-- The last payload is the stack of the sixteen bit vectors, least significant first. -/
theorem pay1_eq (v4 v11 v18 v25 v32 v39 v46 v53 v60 v67 v74 v81 v84 v88 v89 : FVec Ideal S128x1024 .f32) :
    k0_pay1 (F := Ideal) v4 v11 v18 v25 v32 v39 v46 v53 v60 v67 v74 v81 v84 v88 v89
      = stack ![b15 v84 v88 v89, b14 v84 v88 v89, b13 v84 v88 v89, v88, v81, v74, v67, v60, v53, v46, v39, v32, v25, v18, v11, v4] := rfl

/-- The last payload at (p, 16·c + k), given what its operands are at (p, c): the bit of step 15 − k. -/
theorem pay1_at (v4 v11 v18 v25 v32 v39 v46 v53 v60 v67 v74 v81 v84 v88 v89 : FVec Ideal S128x1024 .f32)
    (p : Fin 128) (c : Fin 1024) (k : Fin 16) (q : Fin 16384) (hq : q.val = 16 * c.val + k.val) (x : EReal)
    (h4 : v4 (ix2 p c) = bitAt kbit x 0)
    (h11 : v11 (ix2 p c) = bitAt kbit x 1)
    (h18 : v18 (ix2 p c) = bitAt kbit x 2)
    (h25 : v25 (ix2 p c) = bitAt kbit x 3)
    (h32 : v32 (ix2 p c) = bitAt kbit x 4)
    (h39 : v39 (ix2 p c) = bitAt kbit x 5)
    (h46 : v46 (ix2 p c) = bitAt kbit x 6)
    (h53 : v53 (ix2 p c) = bitAt kbit x 7)
    (h60 : v60 (ix2 p c) = bitAt kbit x 8)
    (h67 : v67 (ix2 p c) = bitAt kbit x 9)
    (h74 : v74 (ix2 p c) = bitAt kbit x 10)
    (h81 : v81 (ix2 p c) = bitAt kbit x 11)
    (h84 : v84 (ix2 p c) = remAfter kbit x 12) (h88 : v88 (ix2 p c) = bitAt kbit x 12)
    (h89 : v89 (ix2 p c) = Ideal.ofBits .f32 (powWord 12)) :
    k0_pay1 (F := Ideal) v4 v11 v18 v25 v32 v39 v46 v53 v60 v67 v74 v81 v84 v88 v89 (ix2 p q) = bitAt kbit x (15 - k.val) := by
  rw [pay1_eq, stack_at _ p c k q hq]
  have e15 := b15_at v84 v88 v89 (ix2 p c) x h84 h88 h89
  have e14 := b14_at v84 v88 v89 (ix2 p c) x h84 h88 h89
  have e13 := b13_at v84 v88 v89 (ix2 p c) x h84 h88 h89
  fin_cases k
  · exact e15
  · exact e14
  · exact e13
  · exact h88
  · exact h81
  · exact h74
  · exact h67
  · exact h60
  · exact h53
  · exact h46
  · exact h39
  · exact h32
  · exact h25
  · exact h18
  · exact h11
  · exact h4

end Cert.KernelIdeal.Hand

end
-- ==== Proof.KernelValue.lean ====
/-
  The kernel's result array as one function of its input. Grid point (i, j) of the 4 × 4 grid loads block (i, j) of
  the [512, 4096] input — rows 128·i …, columns 1024·j … — and writes block (i, j) of the [512, 65536] output — rows
  128·i …, columns 16384·j …. Inside a block, entry (p, 16·c + k) of what is written is bit k of the cascade on entry
  (p, c) of what was loaded (KernelStack.lean), and 16384·j + 16·c + k = 16·(1024·j + c) + k, so every block is the
  restriction of ONE function of the whole input: entry (r, 16·c + k) of the flat output is bit k of input entry (r, c).
  The sixteen blocks tile the output, so after the run the output array is that function everywhere. The host then
  reshapes [512, 65536] to [512, 4096, 16] row-major: entry (r, c, k) is the flat entry (r, 16·c + k) — the function G.
-/
import proofs.«133619_j62380105007549_2_alg».proof.Proof.Gen.KernelIdeal.Frame
import proofs.«133619_j62380105007549_2_alg».proof.Proof.KernelStack
import Idealize.ShloMosaic.Lib.Pipeline.Value
import Idealize.ShloMosaic.Lib.StableHlo.Run
import Idealize.ShloMosaic.Lib.Tactic

set_option maxRecDepth 16384

noncomputable section

namespace Cert.KernelIdeal.Hand

open Cert.KernelIdeal Cert.KernelIdeal.Gen Cert.BitCascade
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- What the body leaves in the output's staging buffer, at (p, 16·c + k): bit k of the cascade on the loaded block's
    entry (p, c). -/
theorem out_at (x0 : Vec Ideal S128x1024 .f32) (y : S128x16384.Idx) (c : Fin 1024) (k : Fin 16)
    (hq : (y 1).val = 16 * c.val + k.val) :
    out0_1 (F := Ideal) x0 y = bitAt kbit (x0 (ix2 (y 0) c)) (15 - k.val) := by
  obtain ⟨p, q, rfl⟩ : ∃ (p : Fin 128) (q : Fin 16384), y = ix2 p q := ⟨y 0, y 1, eq_ix2 y⟩
  unfold out0_1
  rw [View.canon_unit_zero hz]
  simp only [View.ld_unit_zero (S := S128x1024) hz]
  exact pay1_at _ _ _ _ _ _ _ _ _ _ _ _ _ _ _ p c k q hq (x0 (ix2 p c))
    (pay2_at x0 _) (pay4_at x0 _) (pay6_at x0 _) (pay8_at x0 _) (pay10_at x0 _) (pay12_at x0 _)
    (pay14_at _ _ _ (pay13_at x0 _)) (pay16_at _ _ _ (pay13_at x0 _)) (pay18_at _ _ _ (pay13_at x0 _))
    (pay20_at _ _ _ (pay13_at x0 _)) (pay22_at _ _ _ (pay13_at x0 _)) (pay24_at _ _ _ (pay13_at x0 _))
    (pay25_at _ _ _ (pay13_at x0 _)) (pay26_at _ _ _ (pay13_at x0 _)) (pay27_at _)

/-- The flat output as a function of the whole input: entry (r, 16·c + k) is bit k of the cascade on entry (r, c). -/
def flat (X : S512x4096.Idx → EReal) : S512x65536.Idx → EReal :=
  fun i => bitAt kbit (X (ix2 (i 0) ⟨(i 1).val / 16, by have h : (i 1).val < 65536 := (i 1).isLt; omega⟩)) (15 - (i 1).val % 16)

theorem flat_at (X : S512x4096.Idx → EReal) (i : S512x65536.Idx) (r : Fin 512) (c : Fin 4096) (k : Fin 16)
    (h0 : (i 0).val = r.val) (h1 : (i 1).val = 16 * c.val + k.val) :
    flat X i = bitAt kbit (X (ix2 r c)) (15 - k.val) := by
  unfold flat
  have hk : (i 1).val % 16 = k.val := by have := k.isLt; omega
  have hi : (ix2 (i 0) ⟨(i 1).val / 16, by have h : (i 1).val < 65536 := (i 1).isLt; omega⟩ : S512x4096.Idx) = ix2 r c := by
    funext a; apply Fin.ext
    match a with
    | ⟨0, _⟩ => exact h0
    | ⟨1, _⟩ => show (i 1).val / 16 = c.val; have := k.isLt; omega
  rw [hi, hk]

/-- The printed index maps over the grid: the input's block index is the output's on both axes, and each is at most 3. -/
theorem idx_facts : ∀ t : Fin cfg0.N, win0_0.index t (0 : Fin 2) = win0_1.index t (0 : Fin 2)
    ∧ win0_0.index t (1 : Fin 2) = win0_1.index t (1 : Fin 2)
    ∧ win0_1.index t (0 : Fin 2) ≤ 3 ∧ win0_1.index t (1 : Fin 2) ≤ 3 :=
  (by decide +kernel : ∀ t : Fin grid0.N, _)

/-- Every block of the 4 × 4 tiling of the output is some grid point's. -/
theorem idx_onto : ∀ (q0 : Fin 4) (q1 : Fin 4), ∃ t : Fin cfg0.N, win0_1.index t = ![q0.val, q1.val] :=
  (by decide +kernel : ∀ (q0 : Fin 4) (q1 : Fin 4), ∃ t : Fin grid0.N, win0_1.index t = ![q0.val, q1.val])

/-- The input window's block at point t, entry z, is the input at (128·i + z₀, 1024·j + z₁). -/
theorem iblk_apply (c : Dev nD) (t : Fin cfg0.N) (z : S128x1024.Idx) (k : S512x4096.Idx)
    (hk0 : (k 0).val = win0_0.index t (0 : Fin 2) * 128 + (z 0).val)
    (hk1 : (k 1).val = win0_0.index t (1 : Fin 2) * 1024 + (z 1).val) :
    (iblk m c 0 t : Vec Ideal S128x1024 .f32) z = (V m c main_arg0 : S512x4096.Idx → EReal) k := by
  unfold iblk
  rw [View.read_apply]
  show V m c main_arg0 _ = V m c main_arg0 _
  congr 1
  funext a
  apply Fin.ext
  match a with
  | ⟨0, _⟩ => show win0_0.index t (0 : Fin 2) * 128 + 1 * (z 0).val = (k 0).val; omega
  | ⟨1, _⟩ => show win0_0.index t (1 : Fin 2) * 1024 + 1 * (z 1).val = (k 1).val; omega

/-- WHAT POINT t WRITES BACK is block t of the flat function of the input. -/
theorem flushed_eq (c : Dev nD) (t : Fin cfg0.N) :
    (dats m 0 c).flushed 1 t = ((cfg0.win 1).blk t).view.read (Elt Ideal) (flat (V m c main_arg0)) := by
  show (cfg0.win 1).cut (grid0.coords t) ((dats m 0 c).after 1 t) = _
  rw [after0_1]
  obtain ⟨e0, e1, b0, b1⟩ := idx_facts t
  funext y
  show out0_1 (iblk m c 0 t) y = flat (V m c main_arg0) (((cfg0.win 1).blk t).view.emb y)
  have hy0 : (y 0).val < 128 := (y 0).isLt
  have hy1 : (y 1).val < 16384 := (y 1).isLt
  have hE0 : ((((cfg0.win 1).blk t).view.emb y) 0).val = win0_1.index t (0 : Fin 2) * 128 + 1 * (y 0).val := rfl
  have hE1 : ((((cfg0.win 1).blk t).view.emb y) 1).val = win0_1.index t (1 : Fin 2) * 16384 + 1 * (y 1).val := rfl
  refine (out_at (iblk m c 0 t) y ⟨(y 1).val / 16, by omega⟩ ⟨(y 1).val % 16, Nat.mod_lt _ (by decide)⟩
    (by show (y 1).val = 16 * ((y 1).val / 16) + (y 1).val % 16; omega)).trans ?_
  refine Eq.trans ?_ (flat_at (V m c main_arg0) (((cfg0.win 1).blk t).view.emb y)
    ⟨win0_1.index t (0 : Fin 2) * 128 + (y 0).val, by omega⟩ ⟨win0_1.index t (1 : Fin 2) * 1024 + (y 1).val / 16, by omega⟩
    ⟨(y 1).val % 16, Nat.mod_lt _ (by decide)⟩ (by rw [hE0]; show _ = win0_1.index t (0 : Fin 2) * 128 + (y 0).val; omega)
    (by rw [hE1]; show _ = 16 * (win0_1.index t (1 : Fin 2) * 1024 + (y 1).val / 16) + (y 1).val % 16; omega)).symm
  refine congrArg (fun z => bitAt kbit z (15 - (y 1).val % 16)) ?_
  exact iblk_apply m c t (ix2 (y 0) ⟨(y 1).val / 16, by omega⟩)
    (ix2 ⟨win0_1.index t (0 : Fin 2) * 128 + (y 0).val, by omega⟩ ⟨win0_1.index t (1 : Fin 2) * 1024 + (y 1).val / 16, by omega⟩)
    (by show win0_1.index t (0 : Fin 2) * 128 + (y 0).val = win0_0.index t (0 : Fin 2) * 128 + (y 0).val; omega)
    (by show win0_1.index t (1 : Fin 2) * 1024 + (y 1).val / 16 = win0_0.index t (1 : Fin 2) * 1024 + (y 1).val / 16; omega)

/-- An index of the output is in point t's block iff each coordinate is in the block's range on its axis. -/
theorem mem_blk (t : Fin cfg0.N) (i : S512x65536.Idx) :
    i ∈ ((cfg0.win 1).blk t).view.set ↔ ∀ a : Fin 2, win0_1.index t a * S128x16384.size a ≤ (i a).val
      ∧ (i a).val < win0_1.index t a * S128x16384.size a + S128x16384.size a := by
  show i ∈ ((View.whole main_v0).slice (win0_1.rect t)).set ↔ _
  rw [View.set_slice_whole, Rect.mem_set_unit]
  exact Iff.rfl

/-- The sixteen blocks cover the output: index i is in the block of the point with block indices (i₀ / 128, i₁ / 16384). -/
theorem cover (i : S512x65536.Idx) : ∃ t : Fin cfg0.N, (cfg0.win 1).flush t = true ∧ i ∈ ((cfg0.win 1).blk t).view.set := by
  have hi0 : (i 0).val < 512 := (i 0).isLt
  have hi1 : (i 1).val < 65536 := (i 1).isLt
  obtain ⟨t, ht⟩ := idx_onto ⟨(i 0).val / 128, by omega⟩ ⟨(i 1).val / 16384, by omega⟩
  have q0 : win0_1.index t (0 : Fin 2) = (i 0).val / 128 := congrFun ht 0
  have q1 : win0_1.index t (1 : Fin 2) = (i 1).val / 16384 := congrFun ht 1
  refine ⟨t, flush0_1 t, ?_⟩
  rw [mem_blk]
  intro a
  match a with
  | ⟨0, _⟩ => show win0_1.index t (0 : Fin 2) * 128 ≤ (i 0).val ∧ (i 0).val < win0_1.index t (0 : Fin 2) * 128 + 128; omega
  | ⟨1, _⟩ => show win0_1.index t (1 : Fin 2) * 16384 ≤ (i 1).val ∧ (i 1).val < win0_1.index t (1 : Fin 2) * 16384 + 16384; omega

/-- THE OUTPUT ARRAY after the run: the flat function of the input. -/
theorem final (c : Dev nD) : (dats m 0 c).arrAt 1 cfg0.N = flat (V m c main_arg0) :=
  (dats m 0 c).arrAt_eq_of_cover 1 (flat (V m c main_arg0)) (fun t _ => flushed_eq m c t) cover

/-- The host's reshape of the flat function is G. -/
theorem reshape_flat (X : S512x4096.Idx → EReal) :
    shapeCast S512x4096x16 (flat X) Facts₀.shapeCasts_S512x65536_S512x4096x16 = G X := by
  funext i
  obtain ⟨r, c, k, rfl⟩ : ∃ (r : Fin 512) (c : Fin 4096) (k : Fin 16), i = ix3 r c k := ⟨i 0, i 1, i 2, eq_ix3 i⟩
  have hc := c.isLt
  have hk := k.isLt
  rw [shapeCast_apply _ _ (ix3 r c k) (ix2 r (⟨16 * c.val + k.val, by omega⟩ : Fin 65536)) (by
    rw [Shape.rowMajor_val_three, Shape.rowMajor_val_two]
    show r.val * 65536 + (16 * c.val + k.val) = (r.val * 4096 + c.val) * 16 + k.val
    omega)]
  rw [flat_at X _ r c k rfl rfl]
  rfl

/-- @main's result after the host's reshape: G of the input. -/
theorem tail_eq (c : Dev nD) :
    Pipeline.afterTail₀ cfgs (dats m) 0 (V0 m) [hostOps1] c main_v1 = G (m ((c : Thread nD τ).loc main_arg0)) := by
  unfold Pipeline.afterTail₀
  show StableHlo.after hostOps1 _ (Proc.devRef .tc main_v1) = _
  after_results
  rw [show Pipeline.withArrays spec0 c (V0 m c) (fun w => (dats m 0 c).arrAt w cfg0.N) (Proc.devRef .tc main_v0) = _ from
    (Pipeline.withArrays_arr spec0 launch0.win.arr_inj c _ _ 1).trans (final m c)]
  exact reshape_flat _

/-- The run, read: the result array at G of the input, the input unchanged. -/
theorem run : θ_run defs (onTc (τ := τ) (main (F := Ideal))) ⟨m, fun _ => 0, ρ⟩ fun r => ∀ c : Dev nD,
      r.2.mem ((c : Thread nD τ).loc main_v1) = G (m ((c : Thread nD τ).loc main_arg0))
      ∧ r.2.mem ((c : Thread nD τ).loc main_arg0) = m ((c : Thread nD τ).loc main_arg0) :=
  (θ_run defs _ _).mono (fun r h c =>
      ⟨((h c).2 main_v1 (Pipeline.mem_restRefs_of main_v1 rfl (by decide))).trans (tail_eq m c),
        ((h c).1 0).trans (((dats m 0 c).arrAt_in 0 rfl _).trans ((A_eq m c 0).trans (V_main_arg0 m c)))⟩)
    (run_main m ρ)

end Cert.KernelIdeal.Hand

end
-- ==== Proof.RefValue.lean ====
/-
  The reference's run, read at one entry. The generated run names the reference's values one by one: the bit each of
  the sixteen steps emits (a logistic compared with 1/2, read as 0 or 1) and the remainder after each step, every one a
  [512, 4096] array obtained from the input by pointwise operations. At an index j each is therefore a step of the
  reference's cascade (Cascade.lean) run on the input's entry at j; each lemma below identifies one, using the one
  before it. The result array stacks the sixteen bit arrays along a new trailing axis, least significant first.

  With a finite input the reference's cascade is the kernel's (Cascade.lean, bitAt_agree), so the result is the
  function G of the input.
-/
import proofs.«133619_j62380105007549_2_alg».proof.Proof.Gen.ReferenceIdeal.Run
import proofs.«133619_j62380105007549_2_alg».proof.Proof.Cascade
import Idealize.ShloMosaic.Lib.ValueIdx
import Idealize.ShloMosaic.Lib.Pipeline.Value

noncomputable section

namespace Cert.ReferenceIdeal.Hand

open Cert.ReferenceIdeal Cert.ReferenceIdeal.Gen Cert.ReferenceIdeal.Value Cert.BitCascade
open Idealize.ShloMosaic Idealize.ShloMosaic.TcCoe Idealize.ShloMosaic.ValueIdx Idealize.ShloMosaic.StableHlo

variable (V0 : Valuation τ sig (Elt Ideal)) (j : S512x4096.Idx)

/-- The input array, as a function of its index. -/
abbrev inp : S512x4096.Idx → EReal := V0 (Proc.devRef .tc main_arg0)

theorem v14_at : (res_main_v14 V0 : S512x4096.Idx → EReal) j = bitAt rbit (inp V0 j) 0 := rfl

theorem v17_at : (res_main_v17 V0 : S512x4096.Idx → EReal) j = remAfter rbit (inp V0 j) 1 := by
  show _ = remAfter rbit (inp V0 j) 0 - bitAt rbit (inp V0 j) 0 * Ideal.ofBits .f32 (powWord 0)
  rw [← v14_at V0 j]; rfl

theorem v32_at : (res_main_v32 V0 : S512x4096.Idx → EReal) j = bitAt rbit (inp V0 j) 1 := by
  unfold bitAt; rw [← v17_at V0 j]; rfl

theorem v35_at : (res_main_v35 V0 : S512x4096.Idx → EReal) j = remAfter rbit (inp V0 j) 2 := by
  show _ = remAfter rbit (inp V0 j) 1 - bitAt rbit (inp V0 j) 1 * Ideal.ofBits .f32 (powWord 1)
  rw [← v32_at V0 j, ← v17_at V0 j]; rfl

theorem v50_at : (res_main_v50 V0 : S512x4096.Idx → EReal) j = bitAt rbit (inp V0 j) 2 := by
  unfold bitAt; rw [← v35_at V0 j]; rfl

theorem v53_at : (res_main_v53 V0 : S512x4096.Idx → EReal) j = remAfter rbit (inp V0 j) 3 := by
  show _ = remAfter rbit (inp V0 j) 2 - bitAt rbit (inp V0 j) 2 * Ideal.ofBits .f32 (powWord 2)
  rw [← v50_at V0 j, ← v35_at V0 j]; rfl

theorem v68_at : (res_main_v68 V0 : S512x4096.Idx → EReal) j = bitAt rbit (inp V0 j) 3 := by
  unfold bitAt; rw [← v53_at V0 j]; rfl

theorem v71_at : (res_main_v71 V0 : S512x4096.Idx → EReal) j = remAfter rbit (inp V0 j) 4 := by
  show _ = remAfter rbit (inp V0 j) 3 - bitAt rbit (inp V0 j) 3 * Ideal.ofBits .f32 (powWord 3)
  rw [← v68_at V0 j, ← v53_at V0 j]; rfl

theorem v86_at : (res_main_v86 V0 : S512x4096.Idx → EReal) j = bitAt rbit (inp V0 j) 4 := by
  unfold bitAt; rw [← v71_at V0 j]; rfl

theorem v89_at : (res_main_v89 V0 : S512x4096.Idx → EReal) j = remAfter rbit (inp V0 j) 5 := by
  show _ = remAfter rbit (inp V0 j) 4 - bitAt rbit (inp V0 j) 4 * Ideal.ofBits .f32 (powWord 4)
  rw [← v86_at V0 j, ← v71_at V0 j]; rfl

theorem v104_at : (res_main_v104 V0 : S512x4096.Idx → EReal) j = bitAt rbit (inp V0 j) 5 := by
  unfold bitAt; rw [← v89_at V0 j]; rfl

theorem v107_at : (res_main_v107 V0 : S512x4096.Idx → EReal) j = remAfter rbit (inp V0 j) 6 := by
  show _ = remAfter rbit (inp V0 j) 5 - bitAt rbit (inp V0 j) 5 * Ideal.ofBits .f32 (powWord 5)
  rw [← v104_at V0 j, ← v89_at V0 j]; rfl

theorem v122_at : (res_main_v122 V0 : S512x4096.Idx → EReal) j = bitAt rbit (inp V0 j) 6 := by
  unfold bitAt; rw [← v107_at V0 j]; rfl

theorem v125_at : (res_main_v125 V0 : S512x4096.Idx → EReal) j = remAfter rbit (inp V0 j) 7 := by
  show _ = remAfter rbit (inp V0 j) 6 - bitAt rbit (inp V0 j) 6 * Ideal.ofBits .f32 (powWord 6)
  rw [← v122_at V0 j, ← v107_at V0 j]; rfl

theorem v140_at : (res_main_v140 V0 : S512x4096.Idx → EReal) j = bitAt rbit (inp V0 j) 7 := by
  unfold bitAt; rw [← v125_at V0 j]; rfl

theorem v143_at : (res_main_v143 V0 : S512x4096.Idx → EReal) j = remAfter rbit (inp V0 j) 8 := by
  show _ = remAfter rbit (inp V0 j) 7 - bitAt rbit (inp V0 j) 7 * Ideal.ofBits .f32 (powWord 7)
  rw [← v140_at V0 j, ← v125_at V0 j]; rfl

theorem v158_at : (res_main_v158 V0 : S512x4096.Idx → EReal) j = bitAt rbit (inp V0 j) 8 := by
  unfold bitAt; rw [← v143_at V0 j]; rfl

theorem v161_at : (res_main_v161 V0 : S512x4096.Idx → EReal) j = remAfter rbit (inp V0 j) 9 := by
  show _ = remAfter rbit (inp V0 j) 8 - bitAt rbit (inp V0 j) 8 * Ideal.ofBits .f32 (powWord 8)
  rw [← v158_at V0 j, ← v143_at V0 j]; rfl

theorem v176_at : (res_main_v176 V0 : S512x4096.Idx → EReal) j = bitAt rbit (inp V0 j) 9 := by
  unfold bitAt; rw [← v161_at V0 j]; rfl

theorem v179_at : (res_main_v179 V0 : S512x4096.Idx → EReal) j = remAfter rbit (inp V0 j) 10 := by
  show _ = remAfter rbit (inp V0 j) 9 - bitAt rbit (inp V0 j) 9 * Ideal.ofBits .f32 (powWord 9)
  rw [← v176_at V0 j, ← v161_at V0 j]; rfl

theorem v194_at : (res_main_v194 V0 : S512x4096.Idx → EReal) j = bitAt rbit (inp V0 j) 10 := by
  unfold bitAt; rw [← v179_at V0 j]; rfl

theorem v197_at : (res_main_v197 V0 : S512x4096.Idx → EReal) j = remAfter rbit (inp V0 j) 11 := by
  show _ = remAfter rbit (inp V0 j) 10 - bitAt rbit (inp V0 j) 10 * Ideal.ofBits .f32 (powWord 10)
  rw [← v194_at V0 j, ← v179_at V0 j]; rfl

theorem v212_at : (res_main_v212 V0 : S512x4096.Idx → EReal) j = bitAt rbit (inp V0 j) 11 := by
  unfold bitAt; rw [← v197_at V0 j]; rfl

theorem v215_at : (res_main_v215 V0 : S512x4096.Idx → EReal) j = remAfter rbit (inp V0 j) 12 := by
  show _ = remAfter rbit (inp V0 j) 11 - bitAt rbit (inp V0 j) 11 * Ideal.ofBits .f32 (powWord 11)
  rw [← v212_at V0 j, ← v197_at V0 j]; rfl

theorem v230_at : (res_main_v230 V0 : S512x4096.Idx → EReal) j = bitAt rbit (inp V0 j) 12 := by
  unfold bitAt; rw [← v215_at V0 j]; rfl

theorem v233_at : (res_main_v233 V0 : S512x4096.Idx → EReal) j = remAfter rbit (inp V0 j) 13 := by
  show _ = remAfter rbit (inp V0 j) 12 - bitAt rbit (inp V0 j) 12 * Ideal.ofBits .f32 (powWord 12)
  rw [← v230_at V0 j, ← v215_at V0 j]; rfl

theorem v248_at : (res_main_v248 V0 : S512x4096.Idx → EReal) j = bitAt rbit (inp V0 j) 13 := by
  unfold bitAt; rw [← v233_at V0 j]; rfl

theorem v251_at : (res_main_v251 V0 : S512x4096.Idx → EReal) j = remAfter rbit (inp V0 j) 14 := by
  show _ = remAfter rbit (inp V0 j) 13 - bitAt rbit (inp V0 j) 13 * Ideal.ofBits .f32 (powWord 13)
  rw [← v248_at V0 j, ← v233_at V0 j]; rfl

theorem v266_at : (res_main_v266 V0 : S512x4096.Idx → EReal) j = bitAt rbit (inp V0 j) 14 := by
  unfold bitAt; rw [← v251_at V0 j]; rfl

theorem v269_at : (res_main_v269 V0 : S512x4096.Idx → EReal) j = remAfter rbit (inp V0 j) 15 := by
  show _ = remAfter rbit (inp V0 j) 14 - bitAt rbit (inp V0 j) 14 * Ideal.ofBits .f32 (powWord 14)
  rw [← v266_at V0 j, ← v251_at V0 j]; rfl

theorem v284_at : (res_main_v284 V0 : S512x4096.Idx → EReal) j = bitAt rbit (inp V0 j) 15 := by
  unfold bitAt; rw [← v269_at V0 j]; rfl

/-! ## The result array -/

/-- A [512, 4096] array given a trailing axis of extent one, read at (r, c, 0). -/
theorem piece_at (u : S512x4096.Idx → EReal) (r : Fin 512) (c : Fin 4096) :
    broadcastInDim S512x4096x1 ![0, 1] Facts₀.bcast_S512x4096_S512x4096x1_0_1 u (ix3 r c (0 : Fin 1)) = u (ix2 r c) :=
  broadcastInDim_apply _ _ _ (ix3 r c (0 : Fin 1)) (ix2 r c) (fun a => by
    match a with
    | ⟨0, _⟩ => rfl
    | ⟨1, _⟩ => rfl)

/-- The sixteen pieces the result stacks, least significant bit first. -/
def pieces : Fin 16 → (S512x4096x1.Idx → EReal) :=
  ![broadcastInDim S512x4096x1 ![0, 1] Facts₀.bcast_S512x4096_S512x4096x1_0_1 (res_main_v284 V0),
    broadcastInDim S512x4096x1 ![0, 1] Facts₀.bcast_S512x4096_S512x4096x1_0_1 (res_main_v266 V0),
    broadcastInDim S512x4096x1 ![0, 1] Facts₀.bcast_S512x4096_S512x4096x1_0_1 (res_main_v248 V0),
    broadcastInDim S512x4096x1 ![0, 1] Facts₀.bcast_S512x4096_S512x4096x1_0_1 (res_main_v230 V0),
    broadcastInDim S512x4096x1 ![0, 1] Facts₀.bcast_S512x4096_S512x4096x1_0_1 (res_main_v212 V0),
    broadcastInDim S512x4096x1 ![0, 1] Facts₀.bcast_S512x4096_S512x4096x1_0_1 (res_main_v194 V0),
    broadcastInDim S512x4096x1 ![0, 1] Facts₀.bcast_S512x4096_S512x4096x1_0_1 (res_main_v176 V0),
    broadcastInDim S512x4096x1 ![0, 1] Facts₀.bcast_S512x4096_S512x4096x1_0_1 (res_main_v158 V0),
    broadcastInDim S512x4096x1 ![0, 1] Facts₀.bcast_S512x4096_S512x4096x1_0_1 (res_main_v140 V0),
    broadcastInDim S512x4096x1 ![0, 1] Facts₀.bcast_S512x4096_S512x4096x1_0_1 (res_main_v122 V0),
    broadcastInDim S512x4096x1 ![0, 1] Facts₀.bcast_S512x4096_S512x4096x1_0_1 (res_main_v104 V0),
    broadcastInDim S512x4096x1 ![0, 1] Facts₀.bcast_S512x4096_S512x4096x1_0_1 (res_main_v86 V0),
    broadcastInDim S512x4096x1 ![0, 1] Facts₀.bcast_S512x4096_S512x4096x1_0_1 (res_main_v68 V0),
    broadcastInDim S512x4096x1 ![0, 1] Facts₀.bcast_S512x4096_S512x4096x1_0_1 (res_main_v50 V0),
    broadcastInDim S512x4096x1 ![0, 1] Facts₀.bcast_S512x4096_S512x4096x1_0_1 (res_main_v32 V0),
    broadcastInDim S512x4096x1 ![0, 1] Facts₀.bcast_S512x4096_S512x4096x1_0_1 (res_main_v14 V0)]

/-- The reference's result, as its run states it. -/
abbrev result : S512x4096x16.Idx → EReal :=
  concatenate S512x4096x16 2 [⟨S512x4096x1, (broadcastInDim S512x4096x1 ![0, 1] Facts₀.bcast_S512x4096_S512x4096x1_0_1 (res_main_v284 V0))⟩, ⟨S512x4096x1, (broadcastInDim S512x4096x1 ![0, 1] Facts₀.bcast_S512x4096_S512x4096x1_0_1 (res_main_v266 V0))⟩, ⟨S512x4096x1, (broadcastInDim S512x4096x1 ![0, 1] Facts₀.bcast_S512x4096_S512x4096x1_0_1 (res_main_v248 V0))⟩, ⟨S512x4096x1, (broadcastInDim S512x4096x1 ![0, 1] Facts₀.bcast_S512x4096_S512x4096x1_0_1 (res_main_v230 V0))⟩, ⟨S512x4096x1, (broadcastInDim S512x4096x1 ![0, 1] Facts₀.bcast_S512x4096_S512x4096x1_0_1 (res_main_v212 V0))⟩, ⟨S512x4096x1, (broadcastInDim S512x4096x1 ![0, 1] Facts₀.bcast_S512x4096_S512x4096x1_0_1 (res_main_v194 V0))⟩, ⟨S512x4096x1, (broadcastInDim S512x4096x1 ![0, 1] Facts₀.bcast_S512x4096_S512x4096x1_0_1 (res_main_v176 V0))⟩, ⟨S512x4096x1, (broadcastInDim S512x4096x1 ![0, 1] Facts₀.bcast_S512x4096_S512x4096x1_0_1 (res_main_v158 V0))⟩, ⟨S512x4096x1, (broadcastInDim S512x4096x1 ![0, 1] Facts₀.bcast_S512x4096_S512x4096x1_0_1 (res_main_v140 V0))⟩, ⟨S512x4096x1, (broadcastInDim S512x4096x1 ![0, 1] Facts₀.bcast_S512x4096_S512x4096x1_0_1 (res_main_v122 V0))⟩, ⟨S512x4096x1, (broadcastInDim S512x4096x1 ![0, 1] Facts₀.bcast_S512x4096_S512x4096x1_0_1 (res_main_v104 V0))⟩, ⟨S512x4096x1, (broadcastInDim S512x4096x1 ![0, 1] Facts₀.bcast_S512x4096_S512x4096x1_0_1 (res_main_v86 V0))⟩, ⟨S512x4096x1, (broadcastInDim S512x4096x1 ![0, 1] Facts₀.bcast_S512x4096_S512x4096x1_0_1 (res_main_v68 V0))⟩, ⟨S512x4096x1, (broadcastInDim S512x4096x1 ![0, 1] Facts₀.bcast_S512x4096_S512x4096x1_0_1 (res_main_v50 V0))⟩, ⟨S512x4096x1, (broadcastInDim S512x4096x1 ![0, 1] Facts₀.bcast_S512x4096_S512x4096x1_0_1 (res_main_v32 V0))⟩, ⟨S512x4096x1, (broadcastInDim S512x4096x1 ![0, 1] Facts₀.bcast_S512x4096_S512x4096x1_0_1 (res_main_v14 V0))⟩] Facts₀.concatenates_S512x4096x1_S512x4096x1_S512x4096x1_S512x4096x1_S512x4096x1_S512x4096x1_S512x4096x1_S512x4096x1_S512x4096x1_S512x4096x1_S512x4096x1_S512x4096x1_S512x4096x1_S512x4096x1_S512x4096x1_S512x4096x1_S512x4096x16_d2

theorem result_ofFn : result V0 = concatenate S512x4096x16 2
    (List.ofFn fun n : Fin 16 => (⟨S512x4096x1, pieces V0 n⟩ : (s : Shape) × (s.Idx → EReal))) Facts₀.concatenates_S512x4096x1_S512x4096x1_S512x4096x1_S512x4096x1_S512x4096x1_S512x4096x1_S512x4096x1_S512x4096x1_S512x4096x1_S512x4096x1_S512x4096x1_S512x4096x1_S512x4096x1_S512x4096x1_S512x4096x1_S512x4096x1_S512x4096x16_d2 := rfl

omit j in
/-- With every input entry real, the reference's result is G of the input: entry (r, c, k) is piece k at (r, c), the
    reference's bit of step 15 − k, which on a real entry is the kernel's. -/
theorem result_eq (hfin : ∀ j, ∃ y : ℝ, inp V0 j = (y : EReal)) : result V0 = G (inp V0) := by
  funext i
  obtain ⟨r, c, k, rfl⟩ : ∃ (r : Fin 512) (c : Fin 4096) (k : Fin 16), i = ix3 r c k := ⟨i 0, i 1, i 2, eq_ix3 i⟩
  rw [result_ofFn]
  refine (concatenate_ofFn_unit_apply (t := S512x4096x16) (s₁ := S512x4096x1) (2 : Fin 3) (pieces V0) _ rfl rfl (ix3 r c k) k rfl
    (ix3 r c (0 : Fin 1)) (fun a ha => by
      match a with
      | ⟨0, _⟩ => rfl
      | ⟨1, _⟩ => rfl
      | ⟨2, _⟩ => exact absurd rfl ha)).trans ?_
  show pieces V0 k (ix3 r c (0 : Fin 1)) = bitAt kbit (inp V0 (ix2 r c)) (15 - k.val)
  obtain ⟨y, hy⟩ := hfin (ix2 r c)
  have hk : ∀ (n : Nat) (u : S512x4096.Idx → EReal), u (ix2 r c) = bitAt rbit (inp V0 (ix2 r c)) n → n < 16 →
      broadcastInDim S512x4096x1 ![0, 1] Facts₀.bcast_S512x4096_S512x4096x1_0_1 u (ix3 r c (0 : Fin 1))
        = bitAt kbit (inp V0 (ix2 r c)) n := by
    intro n u hu hn
    rw [piece_at, hu, hy, bitAt_agree y n hn]
  fin_cases k
  · exact hk 15 _ (v284_at V0 _) (by norm_num)
  · exact hk 14 _ (v266_at V0 _) (by norm_num)
  · exact hk 13 _ (v248_at V0 _) (by norm_num)
  · exact hk 12 _ (v230_at V0 _) (by norm_num)
  · exact hk 11 _ (v212_at V0 _) (by norm_num)
  · exact hk 10 _ (v194_at V0 _) (by norm_num)
  · exact hk 9 _ (v176_at V0 _) (by norm_num)
  · exact hk 8 _ (v158_at V0 _) (by norm_num)
  · exact hk 7 _ (v140_at V0 _) (by norm_num)
  · exact hk 6 _ (v122_at V0 _) (by norm_num)
  · exact hk 5 _ (v104_at V0 _) (by norm_num)
  · exact hk 4 _ (v86_at V0 _) (by norm_num)
  · exact hk 3 _ (v68_at V0 _) (by norm_num)
  · exact hk 2 _ (v50_at V0 _) (by norm_num)
  · exact hk 1 _ (v32_at V0 _) (by norm_num)
  · exact hk 0 _ (v14_at V0 _) (by norm_num)

end Cert.ReferenceIdeal.Hand

end
-- ==== Proof.Finite.lean ====
/-
  Finiteness, from the precondition: the predicate reduces, by "and" over all entries, the comparison |x| < +inf of each
  input entry; where it is all ones every comparison is one, and an extended real whose absolute value is below +inf is a
  real number.
-/
import proofs.«133619_j62380105007549_2_alg».proof.Pre_finite_inputs
import proofs.«133619_j62380105007549_2_alg».proof.Proof.Gen.Pre_finite_inputs
import Idealize.ShloMosaic.PureOps.Ideal
import Idealize.ShloMosaic.Lib.ValueIdx
import Idealize.ShloMosaic.Lib.ReduceAll
import Idealize.ShloMosaic.Lib.Affine

noncomputable section

namespace Cert.Pre_finite_inputs.Hand

open Cert.Pre_finite_inputs Idealize.ShloMosaic Idealize.ShloMosaic.ValueIdx

instance : Subsingleton S_.Idx := ⟨fun a b => funext fun d => d.elim0⟩

/-- The pattern of +inf denotes the top element. -/
theorem ofBits_inf : Ideal.ofBits .f32 0x7F800000#32 = ⊤ := by
  simp [Ideal.ofBits, Ideal.ieee]

/-- Where the precondition is all ones, every entry of the input is a real number. -/
theorem real_of_pre [Facts] (X : FVec Ideal S512x4096 .f32) (h : fn (F := Ideal) X = fun _ => 1#1) (j : S512x4096.Idx) :
    ∃ y : ℝ, X j = (y : EReal) := by
  have h0 := congrFun h ix0
  dsimp only [fn] at h0
  have h1 := Host.reduce_andi_all _ _ _ _ ix0 h0 j
  change Ideal.cmp .olt (max (X j) (-(X j))) (Ideal.ofBits .f32 0x7F800000#32) = 1#1 at h1
  rw [ofBits_inf] at h1
  unfold Ideal.cmp at h1
  dsimp only at h1
  have hlt : max (X j) (-(X j)) < ⊤ := by
    by_contra hc
    rw [decide_eq_false hc] at h1
    exact absurd h1 (by decide)
  generalize X j = z at hlt ⊢
  induction z using EReal.rec with
  | bot => simp at hlt
  | coe y => exact ⟨y, rfl⟩
  | top => simp at hlt

end Cert.Pre_finite_inputs.Hand

end
-- ==== Proof.lean ====
/-
  The kernel extracts the sixteen bits of every entry of a [512, 4096] array by a cascade: for k = 15 down to 0 it
  compares the remainder with 2^k − 1/2, emits 1 or 0, and subtracts that times 2^k; the bits are stacked along a new
  trailing axis, least significant first. The reference runs the same cascade with the test spelled through a logistic,
  sigmoid(20 · (r − 2^k + 1/2)) > 1/2, the sigmoid being 1 / (1 + exp (−y)).

  Over the extended reals, with every input entry finite, the two are one function G of the input (Proof/Cascade.lean):
  on a real remainder the logistic is above 1/2 exactly when its argument is positive, that is when r > 2^k − 1/2, and a
  real remainder stays real through a step. Finiteness is used: the claim's precondition gives it (Proof/Finite.lean).

  The kernel's side (Proof/KernelPay.lean, KernelStack.lean, KernelValue.lean): the body's values at one entry of a
  block are the cascade's steps on that entry; the stored block at (p, 16·c + k) is bit k of the loaded block's entry
  (p, c); the sixteen blocks of the 4 × 4 grid tile the flat [512, 65536] output and each is the restriction of one
  function of the whole input; the host's reshape to [512, 4096, 16] reads entry (r, c, k) at (r, 16·c + k).
  The reference's side (Proof/RefValue.lean): the run's named values at an entry are its cascade's steps, and the
  result's concatenation at (r, c, k) is piece k at (r, c).

  The three frames are the generated ones (the reference's is its run with the result dropped); the ideal pass rewrote
  nothing, so the idealization claim is trivial.
-/
import proofs.«133619_j62380105007549_2_alg».proof.Defs
import proofs.«133619_j62380105007549_2_alg».proof.Proof.Gen.Kernel
import proofs.«133619_j62380105007549_2_alg».proof.Proof.Gen.Kernel.Skeleton
import proofs.«133619_j62380105007549_2_alg».proof.Proof.Gen.Kernel.Launch
import proofs.«133619_j62380105007549_2_alg».proof.Proof.Gen.Kernel.Points
import proofs.«133619_j62380105007549_2_alg».proof.Proof.Gen.Kernel.Frame
import proofs.«133619_j62380105007549_2_alg».proof.Proof.Gen.KernelIdeal
import proofs.«133619_j62380105007549_2_alg».proof.Proof.Gen.KernelIdeal.Skeleton
import proofs.«133619_j62380105007549_2_alg».proof.Proof.Gen.KernelIdeal.Launch
import proofs.«133619_j62380105007549_2_alg».proof.Proof.Gen.KernelIdeal.Points
import proofs.«133619_j62380105007549_2_alg».proof.Proof.Gen.KernelIdeal.Frame
import proofs.«133619_j62380105007549_2_alg».proof.Proof.Gen.ReferenceIdeal
import proofs.«133619_j62380105007549_2_alg».proof.Proof.Gen.Pre_finite_inputs
import proofs.«133619_j62380105007549_2_alg».proof.Proof.Gen.ReferenceIdeal.Run
import proofs.«133619_j62380105007549_2_alg».proof.Proof.KernelValue
import proofs.«133619_j62380105007549_2_alg».proof.Proof.RefValue
import proofs.«133619_j62380105007549_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.StableHlo

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the result array at G of the input: the kernel's run (KernelValue.lean), and the reference's
    run of an input that agrees with the kernel's and is therefore finite (RefValue.lean, Finite.lean). -/
theorem algebraic : Cert.algebraic_KernelIdeal_ReferenceIdeal := by
  intro m ρ m' ρ' hpre hagree
  refine ⟨fun c => Cert.BitCascade.G (m ((c.tc : Thread Cert.KernelIdeal.nD Cert.KernelIdeal.τ).loc Cert.KernelIdeal.main_arg0)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  have hin : Cert.ReferenceIdeal.Hand.inp (launchContents m' c)
      = m ((c.tc : Thread Cert.KernelIdeal.nD Cert.KernelIdeal.τ).loc Cert.KernelIdeal.main_arg0) := hagree c
  have hfin : ∀ j, ∃ y : ℝ, Cert.ReferenceIdeal.Hand.inp (launchContents m' c) j = (y : EReal) := by
    intro j
    rw [hin]
    exact Cert.Pre_finite_inputs.Hand.real_of_pre _ (hpre c) j
  exact (Cert.ReferenceIdeal.Hand.result_eq (launchContents m' c) hfin).trans (by rw [hin])

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
